-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x6x512x512 : Shape := ⟨4, ![16, 6, 512, 512]⟩
abbrev S_ : Shape := ⟨0, ![]⟩

class Facts : Prop where
  bcast_S_S16x6x512x512 : S_.BroadcastsInDim S16x6x512x512 (![] : Fin 0 → Fin S16x6x512x512.rank)
  reducesTo_S16x6x512x512_S_d0_1_2_3 : S16x6x512x512.ReducesTo [0, 1, 2, 3] S_
  h_S_ : 0 < S_.numel

variable [Facts]

def fn {F : FTy → Type} [FloatOps F] (main_arg0 : FVec F S16x6x512x512 .f32) (main_arg1 : FVec F S16x6x512x512 .f32) : IVec S_ 1 :=
  let main_v0 : FVec F S16x6x512x512 .f32 := Host.absf main_arg0
  let main_cst : FVec F S_ .f32 := constant S_ .f32 0x7F800000#32
  let main_v1 : FVec F S16x6x512x512 .f32 := broadcastInDim S16x6x512x512 ![] bcast_S_S16x6x512x512 main_cst
  let main_v2 : IVec S16x6x512x512 1 := cmpf .olt main_v0 main_v1
  let main_c : IVec S_ 1 := constantI S_ 1 1#1
  let main_v3 : IVec S_ 1 := (fun x v => Host.reduce IntOp.andi x v reducesTo_S16x6x512x512_S_d0_1_2_3 h_S_) main_v2 main_c
  let main_v4 : FVec F S16x6x512x512 .f32 := Host.absf main_arg1
  let main_cst_0 : FVec F S_ .f32 := constant S_ .f32 0x7F800000#32
  let main_v5 : FVec F S16x6x512x512 .f32 := broadcastInDim S16x6x512x512 ![] bcast_S_S16x6x512x512 main_cst_0
  let main_v6 : IVec S16x6x512x512 1 := cmpf .olt main_v4 main_v5
  let main_c_1 : IVec S_ 1 := constantI S_ 1 1#1
  let main_v7 : IVec S_ 1 := (fun x v => Host.reduce IntOp.andi x v reducesTo_S16x6x512x512_S_d0_1_2_3 h_S_) main_v6 main_c_1
  let main_v8 : IVec S_ 1 := andi main_v3 main_v7
  main_v8
-- ==== Kernel.lean ====
abbrev S16x6x512x512 : Shape := ⟨4, ![16, 6, 512, 512]⟩
abbrev S2x8x128 : Shape := ⟨3, ![2, 8, 128]⟩
abbrev S1x6x512x512 : Shape := ⟨4, ![1, 6, 512, 512]⟩
abbrev S1x8x128 : Shape := ⟨3, ![1, 8, 128]⟩
abbrev S8x128 : Shape := ⟨2, ![8, 128]⟩
abbrev S1x1 : Shape := ⟨2, ![1, 1]⟩
abbrev S1x1x512x512 : Shape := ⟨4, ![1, 1, 512, 512]⟩
abbrev S512x512 : Shape := ⟨2, ![512, 512]⟩
abbrev S1x512 : Shape := ⟨2, ![1, 512]⟩
abbrev S513x512 : Shape := ⟨2, ![513, 512]⟩
abbrev S514x512 : Shape := ⟨2, ![514, 512]⟩
abbrev S514x1 : Shape := ⟨2, ![514, 1]⟩
abbrev S514x513 : Shape := ⟨2, ![514, 513]⟩
abbrev S514x514 : Shape := ⟨2, ![514, 514]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S16x6x512x512, .f32⟩
  | .hbm, ⟨1, _⟩ => ⟨S16x6x512x512, .f32⟩
  | .hbm, ⟨2, _⟩ => ⟨S2x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x6x512x512, .f32⟩
  | .local _ .vmem, ⟨1, _⟩ => ⟨S1x6x512x512, .f32⟩
  | .local _ .vmem, ⟨2, _⟩ => ⟨S1x6x512x512, .f32⟩
  | .local _ .vmem, ⟨3, _⟩ => ⟨S1x6x512x512, .f32⟩
  | .local _ .vmem, ⟨4, _⟩ => ⟨S1x8x128, .f32⟩
  | .local _ .vmem, ⟨5, _⟩ => ⟨S1x8x128, .f32⟩
  | _, _ => ⟨S16x6x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x6x512x512_S1x1x512x512_0_0_0_0 : ∀ a, (![0, 0, 0, 0] : Fin 4 → Nat) a + S1x1x512x512.size a ≤ S1x6x512x512.size a
  h_S1x1x512x512 : 0 < S1x1x512x512.numel
  shapeCasts_S1x1x512x512_S512x512 : S1x1x512x512.ShapeCasts S512x512
  concatenates_S1x512_S512x512_S513x512_d0 : Shape.Concatenates [S1x512, S512x512] S513x512 0
  concatenates_S513x512_S1x512_S514x512_d0 : Shape.Concatenates [S513x512, S1x512] S514x512 0
  concatenates_S514x1_S514x512_S514x513_d1 : Shape.Concatenates [S514x1, S514x512] S514x513 1
  concatenates_S514x513_S514x1_S514x514_d1 : Shape.Concatenates [S514x513, S514x1] S514x514 1
  slices_S514x514_o0_1_S512x512 : S514x514.Slices ![0, 1] S512x512
  slices_S514x514_o2_1_S512x512 : S514x514.Slices ![2, 1] S512x512
  slices_S514x514_o1_0_S512x512 : S514x514.Slices ![1, 0] S512x512
  slices_S514x514_o1_2_S512x512 : S514x514.Slices ![1, 2] S512x512
  slices_S514x514_o0_0_S512x512 : S514x514.Slices ![0, 0] S512x512
  slices_S514x514_o2_2_S512x512 : S514x514.Slices ![2, 2] S512x512
  slices_S514x514_o0_2_S512x512 : S514x514.Slices ![0, 2] S512x512
  slices_S514x514_o2_0_S512x512 : S514x514.Slices ![2, 0] S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inb_S1x6x512x512_S1x1x512x512_0_1_0_0 : ∀ a, (![0, 1, 0, 0] : Fin 4 → Nat) a + S1x1x512x512.size a ≤ S1x6x512x512.size a
  inb_S1x6x512x512_S1x1x512x512_0_2_0_0 : ∀ a, (![0, 2, 0, 0] : Fin 4 → Nat) a + S1x1x512x512.size a ≤ S1x6x512x512.size a
  inb_S1x6x512x512_S1x1x512x512_0_3_0_0 : ∀ a, (![0, 3, 0, 0] : Fin 4 → Nat) a + S1x1x512x512.size a ≤ S1x6x512x512.size a
  inb_S1x6x512x512_S1x1x512x512_0_4_0_0 : ∀ a, (![0, 4, 0, 0] : Fin 4 → Nat) a + S1x1x512x512.size a ≤ S1x6x512x512.size a
  inb_S1x6x512x512_S1x1x512x512_0_5_0_0 : ∀ a, (![0, 5, 0, 0] : Fin 4 → Nat) a + S1x1x512x512.size a ≤ S1x6x512x512.size a
  iota_S8x128_d0_w32 : S8x128.Iotas .tc 32 [0]
  shapeCasts_S1x1_S1x1 : S1x1.ShapeCasts S1x1
  broadcasts_S1x1_S8x128 : S1x1.Broadcasts S8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6x512x512.size a ≤ S16x6x512x512.size a
  hwx0_0 : ∀ i : grid0.Coords, EltTy.bits .f32 = 32 ∨ (Rect.block (s := S16x6x512x512) S1x6x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6x512x512.size a ≤ S16x6x512x512.size a
  hwx0_1 : ∀ i : grid0.Coords, EltTy.bits .f32 = 32 ∨ (Rect.block (s := S16x6x512x512) S1x6x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S1x6x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x6x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x6x512x512 : Shape := ⟨4, ![16, 6, 512, 512]⟩
abbrev S_ : Shape := ⟨0, ![]⟩
abbrev S16x6x514x514 : Shape := ⟨4, ![16, 6, 514, 514]⟩
abbrev S16x24x512x512 : Shape := ⟨4, ![16, 24, 512, 512]⟩

abbrev nBuf : Space → Nat
  | .hbm => 43
  | .vmem => 0
  | .smem => 0
  | _ => 0

abbrev bufTy : (tb : Table) → Fin (tcTables nBuf tb) → BufTy
  | .hbm, ⟨0, _⟩ => ⟨S16x6x512x512, .f32⟩
  | .hbm, ⟨1, _⟩ => ⟨S16x6x512x512, .f32⟩
  | .hbm, ⟨2, _⟩ => ⟨S_, .i32⟩
  | .hbm, ⟨3, _⟩ => ⟨S_, .f32⟩
  | .hbm, ⟨4, _⟩ => ⟨S16x6x514x514, .f32⟩
  | .hbm, ⟨5, _⟩ => ⟨S16x6x512x512, .f32⟩
  | .hbm, ⟨6, _⟩ => ⟨S16x6x512x512, .f32⟩
  | .hbm, ⟨7, _⟩ => ⟨S16x6x512x512, .f32⟩
  | .hbm, ⟨8, _⟩ => ⟨S16x6x512x512, .f32⟩
  | .hbm, ⟨9, _⟩ => ⟨S16x6x512x512, .f32⟩
  | .hbm, ⟨10, _⟩ => ⟨S16x6x512x512, .f32⟩
  | .hbm, ⟨11, _⟩ => ⟨S16x6x512x512, .f32⟩
  | .hbm, ⟨12, _⟩ => ⟨S16x6x512x512, .f32⟩
  | .hbm, ⟨13, _⟩ => ⟨S16x6x512x512, .f32⟩
  | .hbm, ⟨14, _⟩ => ⟨S16x6x512x512, .f32⟩
  | .hbm, ⟨15, _⟩ => ⟨S16x6x512x512, .f32⟩
  | .hbm, ⟨16, _⟩ => ⟨S16x6x512x512, .f32⟩
  | .hbm, ⟨17, _⟩ => ⟨S16x24x512x512, .f32⟩
  | .hbm, ⟨18, _⟩ => ⟨S_, .i32⟩
  | .hbm, ⟨19, _⟩ => ⟨S_, .f32⟩
  | .hbm, ⟨20, _⟩ => ⟨S16x6x514x514, .f32⟩
  | .hbm, ⟨21, _⟩ => ⟨S16x6x512x512, .f32⟩
  | .hbm, ⟨22, _⟩ => ⟨S16x6x512x512, .f32⟩
  | .hbm, ⟨23, _⟩ => ⟨S16x6x512x512, .f32⟩
  | .hbm, ⟨24, _⟩ => ⟨S16x6x512x512, .f32⟩
  | .hbm, ⟨25, _⟩ => ⟨S16x6x512x512, .f32⟩
  | .hbm, ⟨26, _⟩ => ⟨S16x6x512x512, .f32⟩
  | .hbm, ⟨27, _⟩ => ⟨S16x6x512x512, .f32⟩
  | .hbm, ⟨28, _⟩ => ⟨S16x6x512x512, .f32⟩
  | .hbm, ⟨29, _⟩ => ⟨S16x6x512x512, .f32⟩
  | .hbm, ⟨30, _⟩ => ⟨S16x6x512x512, .f32⟩
  | .hbm, ⟨31, _⟩ => ⟨S16x6x512x512, .f32⟩
  | .hbm, ⟨32, _⟩ => ⟨S16x6x512x512, .f32⟩
  | .hbm, ⟨33, _⟩ => ⟨S16x24x512x512, .f32⟩
  | .hbm, ⟨34, _⟩ => ⟨S16x24x512x512, .f32⟩
  | .hbm, ⟨35, _⟩ => ⟨S16x24x512x512, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S16x6x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  pads_S16x6x512x512_S16x6x514x514_000_000_110_110 : S16x6x512x512.Pads (![0, 0, 1, 1] : Fin 4 → Nat) ![0, 0, 1, 1] ![0, 0, 0, 0] S16x6x514x514
  h_S_ : 0 < S_.numel
  slices_S16x6x514x514_S16x6x512x512_0_0_0_1 : S16x6x514x514.Slices ![0, 0, 0, 1] S16x6x512x512
  slices_S16x6x514x514_S16x6x512x512_0_0_2_1 : S16x6x514x514.Slices ![0, 0, 2, 1] S16x6x512x512
  slices_S16x6x514x514_S16x6x512x512_0_0_1_0 : S16x6x514x514.Slices ![0, 0, 1, 0] S16x6x512x512
  slices_S16x6x514x514_S16x6x512x512_0_0_1_2 : S16x6x514x514.Slices ![0, 0, 1, 2] S16x6x512x512
  slices_S16x6x514x514_S16x6x512x512_0_0_0_0 : S16x6x514x514.Slices ![0, 0, 0, 0] S16x6x512x512
  slices_S16x6x514x514_S16x6x512x512_0_0_2_2 : S16x6x514x514.Slices ![0, 0, 2, 2] S16x6x512x512
  slices_S16x6x514x514_S16x6x512x512_0_0_0_2 : S16x6x514x514.Slices ![0, 0, 0, 2] S16x6x512x512
  slices_S16x6x514x514_S16x6x512x512_0_0_2_0 : S16x6x514x514.Slices ![0, 0, 2, 0] S16x6x512x512
  concatenates_S16x6x512x512_S16x6x512x512_S16x6x512x512_S16x6x512x512_S16x24x512x512_d1 : Shape.Concatenates [S16x6x512x512, S16x6x512x512, S16x6x512x512, S16x6x512x512] S16x24x512x512 1
  reducesTo_S16x24x512x512_S_d0_1_2_3 : S16x24x512x512.ReducesTo [0, 1, 2, 3] S_

variable [Facts₀]

class Facts : Prop extends Facts₀ where

variable [Facts]
-- ==== Proof.Body.lean ====
/-
  What one grid point computes, as ONE term over the twelve loaded channel blocks (six of each argument).

  For a channel's two blocks x, y the body forms the difference image x - y with a border of zeros one pixel
  wide (`padded`), and for each of the four directions the sum over all pixels of the absolute one-step difference
  (`dirSum`: a sum along each row, then the sum of the row sums). A channel adds its four sums to the running
  total (`chan`), channels in order (`total`), and the total is written into the row of the 8 × 128 output block
  whose number is the point's second grid coordinate, every other row kept (`rowOut`).
-/
import proofs.«128322_j41558103556725_1_alg».proof.Proof.Gen.KernelIdeal.Skeleton

set_option maxRecDepth 65536

noncomputable section

namespace Cert.KernelIdeal.Body

open Idealize.ShloMosaic Idealize.SL.Sem
open Cert.KernelIdeal Cert.KernelIdeal.Gen

variable {F : FTy → Type} [FloatOps F]

/-- The difference image of a channel's two blocks inside a border of zeros: 514 × 514. -/
def padded (x y : Vec F S1x1x512x512 .f32) : FVec F S514x514 .f32 := k0_pay3 x y

/-- The sum over all 512 × 512 pixels of the absolute difference of two windows of the padded image, taken row
    by row and then down the column of row sums; a 1 × 1 array. -/
def dirSum (o1 o2 : Fin 2 → Nat) (h1 : S514x514.Slices o1 S512x512) (h2 : S514x514.Slices o2 S512x512)
    (p : FVec F S514x514 .f32) : FVec F S1x1 .f32 :=
  shapeCast S1x1
    (multiReduction .add [0] S1
      (shapeCast S512x1
        (multiReduction .add [1] S512
          (absf (subf (extractStridedSlice S512x512 o1 p h1) (extractStridedSlice S512x512 o2 p h2)))
          0x00000000#32 Facts₀.reduces_S512x512_S512 (.inl rfl) rfl)
        Facts₀.shapeCasts_S512_S512x1)
      0x00000000#32 Facts₀.reduces_S512x1_S1 (.inl rfl) rfl)
    Facts₀.shapeCasts_S1_S1x1

/-- One channel's contribution added to the running total: vertical, horizontal, then the two diagonals. -/
def chan (acc : FVec F S1x1 .f32) (p : FVec F S514x514 .f32) : FVec F S1x1 .f32 :=
  addf (addf (addf (addf acc
    (dirSum ![0, 1] ![2, 1] Facts₀.slices_S514x514_o0_1_S512x512 Facts₀.slices_S514x514_o2_1_S512x512 p))
    (dirSum ![1, 0] ![1, 2] Facts₀.slices_S514x514_o1_0_S512x512 Facts₀.slices_S514x514_o1_2_S512x512 p))
    (dirSum ![0, 0] ![2, 2] Facts₀.slices_S514x514_o0_0_S512x512 Facts₀.slices_S514x514_o2_2_S512x512 p))
    (dirSum ![0, 2] ![2, 0] Facts₀.slices_S514x514_o0_2_S512x512 Facts₀.slices_S514x514_o2_0_S512x512 p)

/-- The total of the six channels, from zero, in channel order. -/
def total (x y : Fin 6 → Vec F S1x1x512x512 .f32) : FVec F S1x1 .f32 :=
  chan (chan (chan (chan (chan (chan (broadcast S1x1 (Scalar.ofBits .f32 0x00000000#32))
    (padded (x 0) (y 0))) (padded (x 1) (y 1))) (padded (x 2) (y 2))) (padded (x 3) (y 3))) (padded (x 4) (y 4)))
    (padded (x 5) (y 5))

/-- The output block after the point: the total in every lane of row `a`, the other rows as they were. -/
def rowOut (a : BitVec 32) (tot : FVec F S1x1 .f32) (prev : Vec F S1x8x128 .f32) : FVec F S1x8x128 .f32 :=
  k0_pay1 (k0_pay30 a) (broadcastTo S8x128 (shapeCast S1x1 tot Facts₀.shapeCasts_S1x1_S1x1) Facts₀.broadcasts_S1x1_S8x128) prev

/-- The body's last stored value, written over the generated payloads, is that row update of the total: the
    payloads cut the same arithmetic at other places. -/
theorem stored_eq (a : BitVec 32) (x y : Fin 6 → Vec F S1x1x512x512 .f32) (prev : Vec F S1x8x128 .f32) :
    k0_pay1 (k0_pay30 a)
      (k0_pay31
        (k0_pay27
          (k0_pay23
            (k0_pay19
              (k0_pay13 (k0_pay9 (x 1) (y 1)) (k0_pay10 (x 1) (y 1)) (k0_pay11 (x 1) (y 1))
                (k0_pay12 (k0_pay4 (x 0) (y 0)) (k0_pay5 (x 0) (y 0)) (k0_pay6 (x 0) (y 0)) (k0_pay7 (x 0) (y 0)) (x 1) (y 1)))
              (k0_pay15 (x 2) (y 2)) (k0_pay16 (x 2) (y 2)) (k0_pay17 (x 2) (y 2)) (k0_pay18 (x 2) (y 2)))
            (k0_pay20 (x 3) (y 3)) (k0_pay21 (x 3) (y 3)) (k0_pay22 (x 3) (y 3)))
          (k0_pay25 (x 4) (y 4)) k0_pay26)
        (k0_pay28 (x 5) (y 5)) k0_pay29)
      prev
    = rowOut a (total x y) prev := rfl

end Cert.KernelIdeal.Body

end
-- ==== Proof.Pieces.lean ====
/-
  What each control case of the body leaves in the output block, as a value.

  Both cases load the six channels of the two argument blocks (`chanBlk`), form the total and write it into the
  row numbered by the point's second grid coordinate. The first point of a group first clears the block, so the
  other rows are zero there (`out_A`); every later point keeps what the point before left (`out_B`).
-/
import proofs.«128322_j41558103556725_1_alg».proof.Proof.Body
import proofs.«128322_j41558103556725_1_alg».proof.Proof.Gen.KernelIdeal.Frame
import Idealize.ShloMosaic.Lib.Pipeline.Value
import Idealize.ShloMosaic.Lib.Tactic

set_option maxRecDepth 65536

noncomputable section

open Idealize.ShloMosaic Idealize.ShloMosaic.TcCoe Idealize.SL.Sem

namespace Cert.KernelIdeal.Pieces

open Cert.KernelIdeal Cert.KernelIdeal.Gen Cert.KernelIdeal.Body

variable {F : FTy → Type} [FloatOps F]

theorem hz3 : (![0, 0, 0] : Fin 3 → Nat) = fun _ => 0 := funext fun a => by fin_cases a <;> rfl

/-- Channel `c` of a staged 1 × 6 × 512 × 512 block: the 1 × 1 × 512 × 512 slab at channel offset `c`. -/
def chanBlk (x : Vec F S1x6x512x512 .f32) : Fin 6 → Vec F S1x1x512x512 .f32
  | ⟨0, _⟩ => View.ld (Val := Elt F) x (Rect.unit (s := S1x6x512x512) ![0, 0, 0, 0] S1x1x512x512.size Facts₀.inb_S1x6x512x512_S1x1x512x512_0_0_0_0)
  | ⟨1, _⟩ => View.ld (Val := Elt F) x (Rect.unit (s := S1x6x512x512) ![0, 1, 0, 0] S1x1x512x512.size Facts₀.inb_S1x6x512x512_S1x1x512x512_0_1_0_0)
  | ⟨2, _⟩ => View.ld (Val := Elt F) x (Rect.unit (s := S1x6x512x512) ![0, 2, 0, 0] S1x1x512x512.size Facts₀.inb_S1x6x512x512_S1x1x512x512_0_2_0_0)
  | ⟨3, _⟩ => View.ld (Val := Elt F) x (Rect.unit (s := S1x6x512x512) ![0, 3, 0, 0] S1x1x512x512.size Facts₀.inb_S1x6x512x512_S1x1x512x512_0_3_0_0)
  | ⟨4, _⟩ => View.ld (Val := Elt F) x (Rect.unit (s := S1x6x512x512) ![0, 4, 0, 0] S1x1x512x512.size Facts₀.inb_S1x6x512x512_S1x1x512x512_0_4_0_0)
  | ⟨5, _⟩ => View.ld (Val := Elt F) x (Rect.unit (s := S1x6x512x512) ![0, 5, 0, 0] S1x1x512x512.size Facts₀.inb_S1x6x512x512_S1x1x512x512_0_5_0_0)

/-- The zero block the first point of a group stores before anything else. -/
abbrev zeroBlk : FVec F S1x8x128 .f32 := k0_pay2

/-- A LATER point of a group: over the block `xo` the point before left, the row update of this point's total. -/
theorem out_B (c : Dev nD) (i : grid0.Coords) (a2 : Memref sig .tc .vmem S1x6x512x512 .f32) (h2 : a2.IsWhole)
    (a3 : Memref sig .tc .vmem S1x6x512x512 .f32) (h3 : a3.IsWhole) (a4 : Memref sig .tc .vmem S1x8x128 .f32) (h4 : a4.IsWhole)
    (hc : ¬cond0_0 i) (x0 x1 : Vec F S1x6x512x512 .f32) (xo : Vec F S1x8x128 .f32) :
    out0_B_2 c i a2 h2 a3 h3 a4 h4 hc x0 x1 xo
      = rowOut (BitVec.ofNat 32 (i 1).val) (total (chanBlk x0) (chanBlk x1)) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x8x128) hz3]
  exact stored_eq _ (chanBlk x0) (chanBlk x1) xo

/-- The FIRST point of a group: the row update of this point's total over the zero block. -/
theorem out_A (c : Dev nD) (i : grid0.Coords) (a2 : Memref sig .tc .vmem S1x6x512x512 .f32) (h2 : a2.IsWhole)
    (a3 : Memref sig .tc .vmem S1x6x512x512 .f32) (h3 : a3.IsWhole) (a4 : Memref sig .tc .vmem S1x8x128 .f32) (h4 : a4.IsWhole)
    (hc : cond0_0 i) (x0 x1 : Vec F S1x6x512x512 .f32) :
    out0_A_2 c i a2 h2 a3 h3 a4 h4 hc x0 x1
      = rowOut (BitVec.ofNat 32 (i 1).val) (total (chanBlk x0) (chanBlk x1)) zeroBlk := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3]
  simp only [View.readCov_unit_zero (S := S1x8x128) _ hz3, View.readAt_eq_ld, h2.read_unread, h3.read_unread]
  exact stored_eq _ (chanBlk x0) (chanBlk x1) zeroBlk

end Cert.KernelIdeal.Pieces

end
-- ==== Proof.Spec.lean ====
/-
  The mathematics both programs compute, stated over plain functions of indices.

  A channel image d : 512 × 512 is read with a border of zeros one pixel wide (`padAt`: position (r, s) of the
  514 × 514 padded image is d (r - 1) (s - 1) inside the border and 0 on it). The four one-step differences of the
  padded image at pixel (i, j) — vertical, horizontal and the two diagonals — are `grad k d i j`: the padded image
  at (i, j) + offA k minus the padded image at (i, j) + offB k.

  One program takes the four differences of the DIFFERENCE image outputs - labels (`termK`), the other the
  difference of the four differences of each image (`termR`); both then sum absolute values over every batch,
  channel, direction and pixel, divide by the number of terms, add a small constant and take the square root
  (`tail`). The differences are linear, so the two summands agree wherever every entry is a real number.
-/
import Idealize.ShloMosaic.PureOps.Ideal
import Idealize.ShloMosaic.Lib.ValueIdx

noncomputable section

open scoped BigOperators

namespace Cert.StructLoss

open Idealize.ShloMosaic Idealize.ShloMosaic.ValueIdx

/-- The scalar shape. -/
abbrev S0 : Shape := ⟨0, ![]⟩
/-- The shape of each argument array: batch, channel, row, column. -/
abbrev SArg : Shape := ⟨4, ![16, 6, 512, 512]⟩
/-- An argument array at the ideal values. -/
abbrev Arr : Type := SArg.Idx → EReal

/-- Position (r, s) of the image `d` padded by one ring of zeros. -/
def padAt {α : Type} [Zero α] (d : Fin 512 → Fin 512 → α) (r s : ℕ) : α :=
  if h : (1 ≤ r ∧ r ≤ 512) ∧ (1 ≤ s ∧ s ≤ 512) then d ⟨r - 1, by omega⟩ ⟨s - 1, by omega⟩ else 0

/-- Direction `k`'s first offset into the padded image: up, left, up-left, up-right of the pixel. -/
def offA : Fin 4 → ℕ × ℕ
  | ⟨0, _⟩ => (0, 1)
  | ⟨1, _⟩ => (1, 0)
  | ⟨2, _⟩ => (0, 0)
  | ⟨3, _⟩ => (0, 2)

/-- Direction `k`'s second offset: down, right, down-right, down-left of the pixel. -/
def offB : Fin 4 → ℕ × ℕ
  | ⟨0, _⟩ => (2, 1)
  | ⟨1, _⟩ => (1, 2)
  | ⟨2, _⟩ => (2, 2)
  | ⟨3, _⟩ => (2, 0)

/-- The one-step difference of the padded image in direction `k` at pixel (i, j). -/
def grad {α : Type} [Zero α] [Sub α] (k : Fin 4) (d : Fin 512 → Fin 512 → α) (i j : Fin 512) : α :=
  padAt d (i.val + (offA k).1) (j.val + (offA k).2) - padAt d (i.val + (offB k).1) (j.val + (offB k).2)

/-- Channel `c` of batch `b` of an argument array, as an image. -/
def img (X : Arr) (b : Fin 16) (c : Fin 6) : Fin 512 → Fin 512 → EReal := fun i j => X (ix4 b c i j)

/-- The absolute value on the extended reals, as both programs take it. -/
def eabs (x : EReal) : EReal := max x (-x)

/-- One summand, differences taken of the difference image. -/
def termK (X Y : Arr) (b : Fin 16) (c : Fin 6) (k : Fin 4) (i j : Fin 512) : EReal :=
  eabs (grad k (fun i j => img X b c i j - img Y b c i j) i j)

/-- One summand, the difference taken of each image's differences. -/
def termR (X Y : Arr) (b : Fin 16) (c : Fin 6) (k : Fin 4) (i j : Fin 512) : EReal :=
  eabs (grad k (img X b c) i j - grad k (img Y b c) i j)

/-- The sum over one batch entry, channels outermost. -/
def batchK (X Y : Arr) (b : Fin 16) : EReal :=
  ∑ c : Fin 6, ∑ k : Fin 4, ∑ i : Fin 512, ∑ j : Fin 512, termK X Y b c k i j

/-- The sum over everything, directions outside channels (the order of the joined channel axis: 6 k + c). -/
def totalR (X Y : Arr) : EReal :=
  ∑ b : Fin 16, ∑ k : Fin 4, ∑ c : Fin 6, ∑ i : Fin 512, ∑ j : Fin 512, termR X Y b c k i j

/-- What both programs do with the total: divide by the number of summands, add the small constant, take the
    square root. The literals are kept as the words both programs spell. -/
def tail (s : FVec Ideal S0 .f32) : FVec Ideal S0 .f32 :=
  Host.sqrt (F := Ideal) (addf (F := Ideal) (Host.divf (F := Ideal) s (constant (F := Ideal) S0 .f32 0x4CC00000#32))
    (constant (F := Ideal) S0 .f32 0x24E69595#32))

/-- Every entry is a real number. -/
def IsFinite (X : Arr) : Prop := ∀ i, X i ≠ ⊤ ∧ X i ≠ ⊥

end Cert.StructLoss

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.BodyIdeal.lean ====
/-
  The body's arithmetic read at an index, at the ideal values (a float is an extended real, every operation exact).

  The padded difference image of a channel is, entry by entry, the specification's zero-bordered image of the
  pointwise difference of the two blocks; a window of it is that image shifted; a direction's sum is the double sum
  over pixels of the absolute one-step difference; and the six channels' four sums each add up, in order, to the
  specification's sum over channels, directions, rows and columns. The row update of the output block puts the
  total into the row whose number is the given word and keeps every other row.
-/
import proofs.«128322_j41558103556725_1_alg».proof.Proof.Body
import proofs.«128322_j41558103556725_1_alg».proof.Proof.Spec
import proofs.«128322_j41558103556725_1_alg».proof.Proof.LibBroadcast
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Affine
import Mathlib.Algebra.BigOperators.Fin

set_option maxRecDepth 16384

noncomputable section

open scoped BigOperators

namespace Cert.KernelIdeal.BodyIdeal

open Idealize.ShloMosaic Idealize.ShloMosaic.ValueIdx Cert.KernelIdeal Cert.KernelIdeal.Gen Cert.KernelIdeal.Body
  Cert.StructLoss

/-! ## Two matrices joined along rows or along columns, read at an index -/

section Concat
variable {α : Type}

/-- Joined along rows, a row above the first piece's height reads the first piece. -/
theorem concat_rows_left {a1 a2 m n : ℕ} (x₁ : (⟨2, ![a1, n]⟩ : Shape).Idx → α) (x₂ : (⟨2, ![a2, n]⟩ : Shape).Idx → α)
    (h : Shape.Concatenates [(⟨2, ![a1, n]⟩ : Shape), ⟨2, ![a2, n]⟩] ⟨2, ![m, n]⟩ 0) (r : Fin m) (s : Fin n)
    (hr : r.val < a1) :
    concatenate (⟨2, ![m, n]⟩ : Shape) 0 [⟨⟨2, ![a1, n]⟩, x₁⟩, ⟨⟨2, ![a2, n]⟩, x₂⟩] h (ix2 r s)
      = x₁ (ix2 ⟨r.val, hr⟩ s) := by
  refine concatenate_pair_apply_left _ x₁ x₂ h (ix2 r s) rfl (ix2 ⟨r.val, hr⟩ s) fun b => ?_
  match b with
  | ⟨0, _⟩ => rfl
  | ⟨1, _⟩ => rfl

/-- Joined along rows, a row at or below the first piece's height reads the second piece, that many rows up. -/
theorem concat_rows_right {a1 a2 m n : ℕ} (x₁ : (⟨2, ![a1, n]⟩ : Shape).Idx → α) (x₂ : (⟨2, ![a2, n]⟩ : Shape).Idx → α)
    (h : Shape.Concatenates [(⟨2, ![a1, n]⟩ : Shape), ⟨2, ![a2, n]⟩] ⟨2, ![m, n]⟩ 0) (r : Fin m) (s : Fin n)
    (hr : a1 ≤ r.val) (hr2 : r.val - a1 < a2) :
    concatenate (⟨2, ![m, n]⟩ : Shape) 0 [⟨⟨2, ![a1, n]⟩, x₁⟩, ⟨⟨2, ![a2, n]⟩, x₂⟩] h (ix2 r s)
      = x₂ (ix2 ⟨r.val - a1, hr2⟩ s) := by
  refine concatenate_pair_apply_right _ x₁ x₂ h (ix2 r s) rfl rfl (ix2 ⟨r.val - a1, hr2⟩ s) (fun b hb => ?_) ?_
  · match b, hb with
    | ⟨0, _⟩, hb => exact absurd rfl hb
    | ⟨1, _⟩, _ => rfl
  · show (r.val - a1) + a1 = r.val
    omega

/-- Joined along columns, a column left of the first piece's width reads the first piece. -/
theorem concat_cols_left {b1 b2 m n : ℕ} (x₁ : (⟨2, ![m, b1]⟩ : Shape).Idx → α) (x₂ : (⟨2, ![m, b2]⟩ : Shape).Idx → α)
    (h : Shape.Concatenates [(⟨2, ![m, b1]⟩ : Shape), ⟨2, ![m, b2]⟩] ⟨2, ![m, n]⟩ 1) (r : Fin m) (s : Fin n)
    (hs : s.val < b1) :
    concatenate (⟨2, ![m, n]⟩ : Shape) 1 [⟨⟨2, ![m, b1]⟩, x₁⟩, ⟨⟨2, ![m, b2]⟩, x₂⟩] h (ix2 r s)
      = x₁ (ix2 r ⟨s.val, hs⟩) := by
  refine concatenate_pair_apply_left _ x₁ x₂ h (ix2 r s) rfl (ix2 r ⟨s.val, hs⟩) fun b => ?_
  match b with
  | ⟨0, _⟩ => rfl
  | ⟨1, _⟩ => rfl

/-- Joined along columns, a column at or right of the first piece's width reads the second piece, that many columns
    to the left. -/
theorem concat_cols_right {b1 b2 m n : ℕ} (x₁ : (⟨2, ![m, b1]⟩ : Shape).Idx → α) (x₂ : (⟨2, ![m, b2]⟩ : Shape).Idx → α)
    (h : Shape.Concatenates [(⟨2, ![m, b1]⟩ : Shape), ⟨2, ![m, b2]⟩] ⟨2, ![m, n]⟩ 1) (r : Fin m) (s : Fin n)
    (hs : b1 ≤ s.val) (hs2 : s.val - b1 < b2) :
    concatenate (⟨2, ![m, n]⟩ : Shape) 1 [⟨⟨2, ![m, b1]⟩, x₁⟩, ⟨⟨2, ![m, b2]⟩, x₂⟩] h (ix2 r s)
      = x₂ (ix2 r ⟨s.val - b1, hs2⟩) := by
  refine concatenate_pair_apply_right _ x₁ x₂ h (ix2 r s) rfl rfl (ix2 r ⟨s.val - b1, hs2⟩) (fun b hb => ?_) ?_
  · match b, hb with
    | ⟨0, _⟩, _ => rfl
    | ⟨1, _⟩, hb => exact absurd rfl hb
  · show (s.val - b1) + b1 = s.val
    omega

/-- A 512 × 512 image set inside a border, one pixel wide, of a value `z` — a row of `z` above, one below, then a
    column of `z` on the left and one on the right — reads the image one step up and left inside the border and `z`
    on it. -/
theorem ring_apply (z : α) (d : S512x512.Idx → α) (r s : Fin 514) :
    concatenate S514x514 1
      [⟨S514x513, concatenate S514x513 1
          [⟨S514x1, broadcast S514x1 z⟩,
           ⟨S514x512, concatenate S514x512 0
              [⟨S513x512, concatenate S513x512 0 [⟨S1x512, broadcast S1x512 z⟩, ⟨S512x512, d⟩]
                  Facts₀.concatenates_S1x512_S512x512_S513x512_d0⟩,
               ⟨S1x512, broadcast S1x512 z⟩] Facts₀.concatenates_S513x512_S1x512_S514x512_d0⟩]
          Facts₀.concatenates_S514x1_S514x512_S514x513_d1⟩,
       ⟨S514x1, broadcast S514x1 z⟩] Facts₀.concatenates_S514x513_S514x1_S514x514_d1 (ix2 r s)
      = if h : (1 ≤ r.val ∧ r.val ≤ 512) ∧ (1 ≤ s.val ∧ s.val ≤ 512)
          then d (ix2 ⟨r.val - 1, by omega⟩ ⟨s.val - 1, by omega⟩) else z := by
  by_cases hs : s.val < 513
  · refine (concat_cols_left _ _ _ r s hs).trans ?_
    by_cases hs0 : s.val < 1
    · refine (concat_cols_left _ _ _ r ⟨s.val, hs⟩ hs0).trans ?_
      rw [dif_neg (by omega)]; rfl
    · refine (concat_cols_right _ _ _ r ⟨s.val, hs⟩ (Nat.not_lt.mp hs0) (show s.val - 1 < 512 by omega)).trans ?_
      by_cases hr : r.val < 513
      · refine (concat_rows_left _ _ _ r _ hr).trans ?_
        by_cases hr0 : r.val < 1
        · refine (concat_rows_left _ _ _ ⟨r.val, hr⟩ _ hr0).trans ?_
          rw [dif_neg (by omega)]; rfl
        · refine (concat_rows_right _ _ _ ⟨r.val, hr⟩ _ (Nat.not_lt.mp hr0) (show r.val - 1 < 512 by omega)).trans ?_
          rw [dif_pos (by omega)]
      · refine (concat_rows_right _ _ _ r _ (Nat.not_lt.mp hr) (show r.val - 513 < 1 by omega)).trans ?_
        rw [dif_neg (by omega)]; rfl
  · refine (concat_cols_right _ _ _ r s (Nat.not_lt.mp hs) (show s.val - 513 < 1 by have := s.isLt; omega)).trans ?_
    rw [dif_neg (by omega)]; rfl

end Concat

/-! ## The padded difference image and its windows -/

/-- A channel's difference image: entry (i, j) of x - y, the two blocks read at (0, 0, i, j). -/
def diffImg (x y : Vec Ideal S1x1x512x512 .f32) : Fin 512 → Fin 512 → EReal :=
  fun i j => x (ix4 (0 : Fin 1) (0 : Fin 1) i j) - y (ix4 (0 : Fin 1) (0 : Fin 1) i j)

/-- The word zero converted to a float is the number zero. -/
theorem sitofp_zero : Scalar.sitofp (F := Ideal) .f32 (0#32 : BitVec 32) = (0 : EReal) := by
  rw [Ideal.scalar_sitofp_def]; simp

/-- The difference of the two blocks, each read as a matrix, is the difference image. -/
theorem diff_apply (x y : Vec Ideal S1x1x512x512 .f32) (i j : Fin 512) :
    subf (F := Ideal) (φ := .f32) (shapeCast S512x512 x Facts₀.shapeCasts_S1x1x512x512_S512x512)
      (shapeCast S512x512 y Facts₀.shapeCasts_S1x1x512x512_S512x512) (ix2 i j) = diffImg x y i j := by
  show x (Shape.reshapeEquiv _ (ix2 i j)) - y (Shape.reshapeEquiv _ (ix2 i j)) = _
  rw [reshapeEquiv_ix2_11ab]
  rfl

/-- The padded image at (r, s) is the specification's zero-bordered difference image there. -/
theorem padded_apply (x y : Vec Ideal S1x1x512x512 .f32) (r s : Fin 514) :
    padded x y (ix2 r s) = padAt (diffImg x y) r.val s.val := by
  refine (ring_apply (Scalar.sitofp (F := Ideal) .f32 (0#32 : BitVec 32)) _ r s).trans ?_
  unfold padAt
  by_cases h : (1 ≤ r.val ∧ r.val ≤ 512) ∧ (1 ≤ s.val ∧ s.val ≤ 512)
  · rw [dif_pos h, dif_pos h]
    exact diff_apply x y _ _
  · rw [dif_neg h, dif_neg h]
    exact sitofp_zero

/-- A 512 × 512 window of the padded image at offset (a, b) reads the zero-bordered difference image shifted by
    (a, b). -/
theorem window_apply (x y : Vec Ideal S1x1x512x512 .f32) (a b : ℕ) (ha : a ≤ 2) (hb : b ≤ 2)
    (h : S514x514.Slices ![a, b] S512x512) (i j : Fin 512) :
    extractStridedSlice S512x512 ![a, b] (padded x y) h (ix2 i j)
      = padAt (diffImg x y) (i.val + a) (j.val + b) := by
  have hi := i.isLt
  have hj := j.isLt
  refine (extractStridedSlice_apply ![a, b] (padded x y) h (ix2 i j)
    (ix2 ⟨a + i.val, by omega⟩ ⟨b + j.val, by omega⟩) fun c => ?_).trans ?_
  · match c with
    | ⟨0, _⟩ => rfl
    | ⟨1, _⟩ => rfl
  · rw [padded_apply]
    show padAt (diffImg x y) (a + i.val) (b + j.val) = _
    rw [Nat.add_comm a, Nat.add_comm b]

/-! ## The sums -/

/-- Summing a 512 × 512 matrix along each row: the entry over row `i` with column `j` is `(i, j)`. -/
theorem lift_cols (i j : Fin 512) :
    Shape.Reduces.lift Facts₀.reduces_S512x512_S512 (ix1 i) j = ix2 i j := by
  funext c
  apply Fin.ext
  match c with
  | ⟨0, _⟩ => rfl
  | ⟨1, _⟩ => rfl

/-- Summing a 512 × 1 column: the entry over the one result position with row `i` is `(i, 0)`. -/
theorem lift_rows (v : Fin 1) (i : Fin 512) :
    Shape.Reduces.lift Facts₀.reduces_S512x1_S1 (ix1 v) i = ix2 i (0 : Fin 1) := by
  funext c
  apply Fin.ext
  match c with
  | ⟨0, _⟩ => rfl
  | ⟨1, _⟩ =>
    show v.val = 0
    have := v.isLt
    omega

/-- A direction's sum: over all pixels, the absolute difference of the two windows. -/
theorem dirSum_apply (o1 o2 : Fin 2 → Nat) (h1 : S514x514.Slices o1 S512x512) (h2 : S514x514.Slices o2 S512x512)
    (p : FVec Ideal S514x514 .f32) (q : S1x1.Idx) :
    dirSum o1 o2 h1 h2 p q = ∑ i : Fin 512, ∑ j : Fin 512,
      eabs (extractStridedSlice S512x512 o1 p h1 (ix2 i j) - extractStridedSlice S512x512 o2 p h2 (ix2 i j)) := by
  obtain ⟨u, v, rfl⟩ : ∃ u v : Fin 1, q = ix2 u v := ⟨q 0, q 1, eq_ix2 q⟩
  unfold dirSum
  refine (shapeCast_a_1a_apply _ _ u v).trans ?_
  refine (Ideal.multiReduction_add_single (φ := .f32) _ 0x00000000#32 Facts₀.reduces_S512x1_S1 (.inl rfl) rfl
    (ix1 v)).trans ?_
  show ∑ k : Fin 512, _ = _
  refine Finset.sum_congr rfl fun i _ => ?_
  rw [lift_rows]
  refine (Cert.Layout.shapeCast_col_apply _ _ i).trans ?_
  refine (Ideal.multiReduction_add_single (φ := .f32) _ 0x00000000#32 Facts₀.reduces_S512x512_S512 (.inl rfl) rfl
    (ix1 i)).trans ?_
  show ∑ k : Fin 512, _ = _
  refine Finset.sum_congr rfl fun j _ => ?_
  rw [lift_cols]
  rfl

/-- A direction's sum over the padded difference image, in the specification's zero-bordered image. -/
theorem dirSum_padded (x y : Vec Ideal S1x1x512x512 .f32) (a1 b1 a2 b2 : ℕ) (ha1 : a1 ≤ 2) (hb1 : b1 ≤ 2)
    (ha2 : a2 ≤ 2) (hb2 : b2 ≤ 2) (h1 : S514x514.Slices ![a1, b1] S512x512) (h2 : S514x514.Slices ![a2, b2] S512x512)
    (q : S1x1.Idx) :
    dirSum ![a1, b1] ![a2, b2] h1 h2 (padded x y) q = ∑ i : Fin 512, ∑ j : Fin 512,
      eabs (padAt (diffImg x y) (i.val + a1) (j.val + b1) - padAt (diffImg x y) (i.val + a2) (j.val + b2)) := by
  rw [dirSum_apply]
  refine Finset.sum_congr rfl fun i _ => Finset.sum_congr rfl fun j _ => ?_
  rw [window_apply x y a1 b1 ha1 hb1, window_apply x y a2 b2 ha2 hb2]

/-- A channel adds to the running total its four directions' sums. -/
theorem chan_apply (acc : FVec Ideal S1x1 .f32) (x y : Vec Ideal S1x1x512x512 .f32) (q : S1x1.Idx) :
    chan acc (padded x y) q
      = acc q + ∑ k : Fin 4, ∑ i : Fin 512, ∑ j : Fin 512, eabs (grad k (diffImg x y) i j) := by
  unfold chan
  rw [addf_apply, addf_apply, addf_apply, addf_apply,
    dirSum_padded x y 0 1 2 1 (by omega) (by omega) (by omega) (by omega),
    dirSum_padded x y 1 0 1 2 (by omega) (by omega) (by omega) (by omega),
    dirSum_padded x y 0 0 2 2 (by omega) (by omega) (by omega) (by omega),
    dirSum_padded x y 0 2 2 0 (by omega) (by omega) (by omega) (by omega),
    Fin.sum_univ_four]
  simp only [add_assoc]
  rfl

/-- The body's total is the sum over channels, directions, rows and columns of the absolute one-step differences
    of the difference images. -/
theorem total_apply (x y : Fin 6 → Vec Ideal S1x1x512x512 .f32) (q : S1x1.Idx) :
    total x y q
      = ∑ c : Fin 6, ∑ k : Fin 4, ∑ i : Fin 512, ∑ j : Fin 512, eabs (grad k (diffImg (x c) (y c)) i j) := by
  have hz : broadcast S1x1 (Scalar.ofBits (F := Ideal) .f32 0x00000000#32) q = (0 : EReal) :=
    Ideal.ofBits_zero_f32
  unfold total
  rw [chan_apply, chan_apply, chan_apply, chan_apply, chan_apply, chan_apply, Fin.sum_univ_six, hz, zero_add]

/-! ## The row update of the output block -/

/-- Two numbers below 2 ^ 32 have the same 32-bit word exactly when they are equal. -/
theorem ofNat32_eq_iff {p q : ℕ} (hp : p < 2 ^ 32) (hq : q < 2 ^ 32) : BitVec.ofNat 32 p = BitVec.ofNat 32 q ↔ p = q := by
  constructor
  · intro e
    have := congrArg BitVec.toNat e
    rw [BitVec.toNat_ofNat, BitVec.toNat_ofNat, Nat.mod_eq_of_lt hp, Nat.mod_eq_of_lt hq] at this
    exact this
  · intro e; rw [e]

/-- The updated output block: the total in every lane of row `n`, the other rows as they were. -/
theorem rowOut_apply {F : FTy → Type} [FloatOps F] (n : ℕ) (hn : n < 8) (tot : FVec F S1x1 .f32)
    (prev : Vec F S1x8x128 .f32) (u : Fin 1) (r : Fin 8) (l : Fin 128) :
    rowOut (BitVec.ofNat 32 n) tot prev (ix3 u r l) = if r.val = n then tot (ix2 0 0) else prev (ix3 u r l) := by
  have hu : u = (0 : Fin 1) := Fin.ext (by have := u.isLt; omega)
  subst hu
  unfold rowOut k0_pay1 k0_pay30
  dsimp only
  refine (shapeCast_ab_1ab_apply _ _ (0 : Fin 1) r l).trans ?_
  rw [select_apply]
  unfold Scalar.select
  have hmask : (cmpi .eq (iota .tc S8x128 32 [0] Facts₀.iota_S8x128_d0_w32) (broadcast S8x128 (BitVec.ofNat 32 n)) (ix2 r l) = 1)
      ↔ r.val = n := by
    show IntOp.cmpi .eq (iota .tc S8x128 32 [0] Facts₀.iota_S8x128_d0_w32 (ix2 r l)) (BitVec.ofNat 32 n) = 1#1 ↔ _
    rw [IntOp.cmpi_eq, iota_single_apply]
    show BitVec.ofNat 32 r.val = BitVec.ofNat 32 n ↔ _
    have := r.isLt
    exact ofNat32_eq_iff (by omega) (by omega)
  by_cases hrn : r.val = n
  · rw [if_pos (hmask.2 hrn), if_pos hrn]
    refine (broadcastTo_apply _ _ (ix2 r l) (ix2 (0 : Fin 1) (0 : Fin 1)) fun c => ?_).trans ?_
    · match c with
      | ⟨0, _⟩ => rfl
      | ⟨1, _⟩ => rfl
    · rw [shapeCast_self]
  · rw [if_neg (fun e => hrn (hmask.1 e)), if_neg hrn]
    exact shapeCast_1ab_ab_apply _ _ r l

end Cert.KernelIdeal.BodyIdeal

end
-- ==== Proof.Chain.lean ====
/-
  The output block point by point, at the ideal values, and the array the kernel leaves.

  Grid point t = 8 g + r handles batch entry t and belongs to group g. Its total is the sum over batch entry t of
  the absolute one-step differences of the difference image (`point_total`: the staged blocks read back as the
  argument arrays at batch entry t). After point t the block's rows 0 … t mod 8 hold the totals of batch entries
  8 g, …, 8 g + (t mod 8) in every lane (`rows`, by induction on the point: the first point of a group clears
  the block and writes row 0, each later one writes its own row and keeps the rest). The block is written back
  after the last point of each group, so entry (g, r, l) of the result array is batch entry 8 g + r's total
  (`final`).
-/
import proofs.«128322_j41558103556725_1_alg».proof.Proof.Pieces
import proofs.«128322_j41558103556725_1_alg».proof.Proof.BodyIdeal
import proofs.«128322_j41558103556725_1_alg».proof.Proof.Spec
import Idealize.ShloMosaic.Lib.Pipeline.Value
import Idealize.ShloMosaic.Lib.ValueIdx

set_option maxRecDepth 65536

noncomputable section

open scoped BigOperators
open Idealize.ShloMosaic Idealize.ShloMosaic.TcCoe Idealize.SL.Sem
open Idealize.ShloMosaic.Pipeline (Dat)

namespace Cert.KernelIdeal.Chain

open Idealize.ShloMosaic.ValueIdx
open Cert.KernelIdeal Cert.KernelIdeal.Gen Cert.KernelIdeal.Body Cert.KernelIdeal.Pieces Cert.KernelIdeal.BodyIdeal
open Cert.StructLoss

/-! ## The grid, decided once -/

theorem lt16 (t : Fin cfg0.N) : t.val < 16 := lt_of_lt_of_eq t.isLt (show cfg0.N = 16 from N_0)

/-- A point's second grid coordinate is its number modulo 8. -/
theorem coord1 : ∀ t : Fin cfg0.N, ((grid0.coords t) 1).val = t.val % 8 :=
  (by decide +kernel : ∀ t : Fin grid0.N, ((grid0.coords t) 1).val = t.val % 8)

/-- The printed index maps over the grid: the two inputs' block is batch entry t, the output's block is group t / 8. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val / 8 ∧ win0_2.index t (1 : Fin 3) = 0 ∧ win0_2.index t (2 : Fin 3) = 0 :=
  (by decide +kernel : ∀ t : Fin grid0.N, _)

/-! ## The staged blocks are the argument arrays at the point's batch entry -/

section Generic
variable {F : FTy → Type} [FloatOps F]

/-- Channel `ch` of a staged block at (0, 0, i, j) is the block at (0, ch, i, j). -/
theorem chanBlk_apply (x : Vec F S1x6x512x512 .f32) (ch : Fin 6) (i j : Fin 512) :
    chanBlk x ch (ix4 (0 : Fin 1) (0 : Fin 1) i j) = x (ix4 (0 : Fin 1) ch i j) := by
  match ch with
  | ⟨0, _⟩ => exact congrArg x (funext fun a => Fin.ext (by
      match a with
      | ⟨0, _⟩ => rfl
      | ⟨1, _⟩ => rfl
      | ⟨2, _⟩ => show 0 + 1 * i.val = i.val; omega
      | ⟨3, _⟩ => show 0 + 1 * j.val = j.val; omega))
  | ⟨1, _⟩ => exact congrArg x (funext fun a => Fin.ext (by
      match a with
      | ⟨0, _⟩ => rfl
      | ⟨1, _⟩ => rfl
      | ⟨2, _⟩ => show 0 + 1 * i.val = i.val; omega
      | ⟨3, _⟩ => show 0 + 1 * j.val = j.val; omega))
  | ⟨2, _⟩ => exact congrArg x (funext fun a => Fin.ext (by
      match a with
      | ⟨0, _⟩ => rfl
      | ⟨1, _⟩ => rfl
      | ⟨2, _⟩ => show 0 + 1 * i.val = i.val; omega
      | ⟨3, _⟩ => show 0 + 1 * j.val = j.val; omega))
  | ⟨3, _⟩ => exact congrArg x (funext fun a => Fin.ext (by
      match a with
      | ⟨0, _⟩ => rfl
      | ⟨1, _⟩ => rfl
      | ⟨2, _⟩ => show 0 + 1 * i.val = i.val; omega
      | ⟨3, _⟩ => show 0 + 1 * j.val = j.val; omega))
  | ⟨4, _⟩ => exact congrArg x (funext fun a => Fin.ext (by
      match a with
      | ⟨0, _⟩ => rfl
      | ⟨1, _⟩ => rfl
      | ⟨2, _⟩ => show 0 + 1 * i.val = i.val; omega
      | ⟨3, _⟩ => show 0 + 1 * j.val = j.val; omega))
  | ⟨5, _⟩ => exact congrArg x (funext fun a => Fin.ext (by
      match a with
      | ⟨0, _⟩ => rfl
      | ⟨1, _⟩ => rfl
      | ⟨2, _⟩ => show 0 + 1 * i.val = i.val; omega
      | ⟨3, _⟩ => show 0 + 1 * j.val = j.val; omega))

variable (m : (ℓ : Loc nD τ sig) → Buf (Elt F) ℓ)

/-- The first argument's block at point t, at (0, ch, i, j), is that argument at (t, ch, i, j). -/
theorem iblk0_apply (c : Dev nD) (t : Fin cfg0.N) (ch : Fin 6) (i j : Fin 512) :
    (iblk m c 0 t : Vec F S1x6x512x512 .f32) (ix4 (0 : Fin 1) ch i j)
      = m ((c : Thread nD τ).loc main_arg0) (ix4 (⟨t.val, lt16 t⟩ : Fin 16) ch i j) := by
  obtain ⟨e0, e1, e2, e3, -⟩ := idx_facts t
  unfold iblk
  rw [View.read_apply]
  show m ((c : Thread nD τ).loc main_arg0) _ = m ((c : Thread nD τ).loc main_arg0) _
  congr 1
  funext a; apply Fin.ext
  match a with
  | ⟨0, _⟩ => show win0_0.index t (0 : Fin 4) * 1 + 1 * 0 = t.val; rw [e0]; omega
  | ⟨1, _⟩ => show win0_0.index t (1 : Fin 4) * 6 + 1 * ch.val = ch.val; rw [e1]; omega
  | ⟨2, _⟩ => show win0_0.index t (2 : Fin 4) * 512 + 1 * i.val = i.val; rw [e2]; omega
  | ⟨3, _⟩ => show win0_0.index t (3 : Fin 4) * 512 + 1 * j.val = j.val; rw [e3]; omega

/-- The second argument's block at point t, likewise. -/
theorem iblk1_apply (c : Dev nD) (t : Fin cfg0.N) (ch : Fin 6) (i j : Fin 512) :
    (iblk m c 1 t : Vec F S1x6x512x512 .f32) (ix4 (0 : Fin 1) ch i j)
      = m ((c : Thread nD τ).loc main_arg1) (ix4 (⟨t.val, lt16 t⟩ : Fin 16) ch i j) := by
  obtain ⟨-, -, -, -, e0, e1, e2, e3, -⟩ := idx_facts t
  unfold iblk
  rw [View.read_apply]
  show m ((c : Thread nD τ).loc main_arg1) _ = m ((c : Thread nD τ).loc main_arg1) _
  congr 1
  funext a; apply Fin.ext
  match a with
  | ⟨0, _⟩ => show win0_1.index t (0 : Fin 4) * 1 + 1 * 0 = t.val; rw [e0]; omega
  | ⟨1, _⟩ => show win0_1.index t (1 : Fin 4) * 6 + 1 * ch.val = ch.val; rw [e1]; omega
  | ⟨2, _⟩ => show win0_1.index t (2 : Fin 4) * 512 + 1 * i.val = i.val; rw [e2]; omega
  | ⟨3, _⟩ => show win0_1.index t (3 : Fin 4) * 512 + 1 * j.val = j.val; rw [e3]; omega

/-- What the output block holds after the first point of a group. -/
theorem outsAt_first (c : Dev nD) (t : Fin cfg0.N) (h0 : t.val % 8 = 0) :
    outsAt0 m c t.val t.isLt
      = rowOut (BitVec.ofNat 32 ((grid0.coords t) 1).val) (total (chanBlk (iblk m c 0 t)) (chanBlk (iblk m c 1 t))) zeroBlk :=
  (outsAt0_A m c t h0).trans
    (out_A c (grid0.coords t) (ms0_0 t) (hs0_0 t) (ms0_1 t) (hs0_1 t) (ms0_2 t) (hs0_2 t) ((hcond0_0 t).mpr h0)
      (iblk m c 0 t) (iblk m c 1 t))

/-- What it holds after a later point: the row update over what the point before left. -/
theorem outsAt_later (c : Dev nD) (t : Fin cfg0.N) (h0 : ¬t.val % 8 = 0) :
    outsAt0 m c t.val t.isLt
      = rowOut (BitVec.ofNat 32 ((grid0.coords t) 1).val) (total (chanBlk (iblk m c 0 t)) (chanBlk (iblk m c 1 t)))
          (outsAt0 m c (t.val - 1) (Nat.lt_of_le_of_lt (Nat.sub_le _ _) t.isLt)) :=
  (outsAt0_B m c t h0).trans
    (out_B c (grid0.coords t) (ms0_0 t) (hs0_0 t) (ms0_1 t) (hs0_1 t) (ms0_2 t) (hs0_2 t) (fun h => h0 ((hcond0_0 t).mp h))
      (iblk m c 0 t) (iblk m c 1 t) (outsAt0 m c (t.val - 1) (Nat.lt_of_le_of_lt (Nat.sub_le _ _) t.isLt)))

end Generic

/-! ## At the ideal values -/

variable (m : (ℓ : Loc nD τ sig) → Buf (Elt Ideal) ℓ)

/-- The two argument arrays as the region finds them. -/
abbrev argX (c : Dev nD) : Arr := m ((c : Thread nD τ).loc main_arg0)
abbrev argY (c : Dev nD) : Arr := m ((c : Thread nD τ).loc main_arg1)

/-- Point t's total is batch entry t's sum of absolute one-step differences of the difference image. -/
theorem point_total (c : Dev nD) (t : Fin cfg0.N) (q : S1x1.Idx) :
    total (chanBlk (iblk m c 0 t)) (chanBlk (iblk m c 1 t)) q = batchK (argX m c) (argY m c) ⟨t.val, lt16 t⟩ := by
  refine (total_apply (chanBlk (iblk m c 0 t)) (chanBlk (iblk m c 1 t)) q).trans ?_
  unfold batchK termK
  refine Finset.sum_congr rfl fun ch _ => Finset.sum_congr rfl fun k _ => Finset.sum_congr rfl fun i _ =>
    Finset.sum_congr rfl fun j _ => ?_
  have hD : diffImg (chanBlk (iblk m c 0 t) ch) (chanBlk (iblk m c 1 t) ch)
      = fun i j => img (argX m c) ⟨t.val, lt16 t⟩ ch i j - img (argY m c) ⟨t.val, lt16 t⟩ ch i j := by
    funext i' j'
    unfold diffImg img
    rw [chanBlk_apply (iblk m c 0 t) ch i' j', chanBlk_apply (iblk m c 1 t) ch i' j',
      iblk0_apply m c t ch i' j', iblk1_apply m c t ch i' j']
  rw [hD]

/-- After point n of group n / 8, rows 0 … n mod 8 of the output block hold the totals of that group's batch
    entries so far, in every lane. -/
theorem rows (c : Dev nD) : ∀ (n : ℕ) (h : n < cfg0.N) (u : Fin 1) (r : Fin 8) (l : Fin 128) (hr : r.val ≤ n % 8),
    outsAt0 m c n h (ix3 u r l)
      = batchK (argX m c) (argY m c) ⟨8 * (n / 8) + r.val, by have := lt16 ⟨n, h⟩; have := r.isLt; dsimp only at *; omega⟩ := by
  intro n
  induction n with
  | zero =>
    intro h u r l hr
    have hn8 : ((grid0.coords (⟨0, h⟩ : Fin cfg0.N)) 1).val < 8 := by rw [coord1]; omega
    rw [show outsAt0 m c 0 h = _ from outsAt_first m c ⟨0, h⟩ rfl, rowOut_apply _ hn8, coord1, if_pos (by dsimp only; omega),
      point_total]
    congr 1
    apply Fin.ext
    dsimp only
    omega
  | succ k ih =>
    intro h u r l hr
    have hn8 : ((grid0.coords (⟨k + 1, h⟩ : Fin cfg0.N)) 1).val < 8 := by rw [coord1]; omega
    by_cases h0 : (k + 1) % 8 = 0
    · rw [show outsAt0 m c (k + 1) h = _ from outsAt_first m c ⟨k + 1, h⟩ h0, rowOut_apply _ hn8, coord1,
        if_pos (by dsimp only; omega), point_total]
      congr 1
      apply Fin.ext
      dsimp only
      omega
    · rw [show outsAt0 m c (k + 1) h = _ from outsAt_later m c ⟨k + 1, h⟩ h0, rowOut_apply _ hn8, coord1]
      by_cases hrk : r.val = (k + 1) % 8
      · rw [if_pos (by dsimp only; exact hrk), point_total]
        congr 1
        apply Fin.ext
        dsimp only
        omega
      · rw [if_neg (by dsimp only; exact hrk)]
        have e := ih (Nat.lt_of_succ_lt h) u r l (by omega)
        refine e.trans ?_
        congr 1
        apply Fin.ext
        dsimp only
        omega

/-! ## The array the kernel leaves -/

/-- Entry (g, r, l) of the result array: batch entry 8 g + r's total, whatever the lane l. -/
def outArr (X Y : Arr) : S2x8x128.Idx → EReal := fun q =>
  batchK X Y ⟨8 * (q 0).val + (q 1).val, by
    have h0 : (q 0).val < 2 := (q 0).isLt
    have h1 : (q 1).val < 8 := (q 1).isLt
    omega⟩

/-- An index of the array is in point t's block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- What the last point of a group writes back is that group's block of `outArr`. -/
theorem flushed_eq (c : Dev nD) (t : Fin cfg0.N) (hf : (cfg0.win 2).flush t = true) :
    (dats m 0 c).flushed 2 t = ((cfg0.win 2).blk t).view.read (Elt Ideal) (outArr (argX m c) (argY m c)) := by
  have h7 : t.val % 8 = 7 := (flush0_2 t).mp hf
  obtain ⟨-, -, -, -, -, -, -, -, e0, e1, e2⟩ := idx_facts t
  show (cfg0.win 2).cut (grid0.coords t) ((dats m 0 c).after 2 t) = _
  rw [after0_2]
  funext y
  obtain ⟨u, r, l, rfl⟩ : ∃ (u : Fin 1) (r : Fin 8) (l : Fin 128), y = ix3 u r l := ⟨y 0, y 1, y 2, eq_ix3 y⟩
  show outsAt0 m c t.val t.isLt (ix3 u r l) = outArr (argX m c) (argY m c) (((cfg0.win 2).blk t).view.emb (ix3 u r l))
  rw [rows m c t.val t.isLt u r l (by have := r.isLt; omega)]
  unfold outArr
  congr 1
  apply Fin.ext
  show 8 * (t.val / 8) + r.val = 8 * (win0_2.index t (0 : Fin 3) * 1 + 1 * u.val) + (win0_2.index t (1 : Fin 3) * 8 + 1 * r.val)
  rw [e0, e1]
  have := u.isLt
  omega

/-- Every index of the result array is in the block some group's last point writes back. -/
theorem cover (i : S2x8x128.Idx) : ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  have hN : cfg0.N = 16 := N_0
  refine ⟨⟨8 * (i 0).val + 7, by omega⟩, (flush0_2 _).mpr (by dsimp only; omega), ?_⟩
  obtain ⟨-, -, -, -, -, -, -, -, e0, e1, e2⟩ := idx_facts ⟨8 * (i 0).val + 7, by omega⟩
  rw [mem_blk]
  intro a
  match a with
  | ⟨0, _⟩ =>
    show win0_2.index _ (0 : Fin 3) * 1 ≤ (i 0).val ∧ (i 0).val < win0_2.index _ (0 : Fin 3) * 1 + 1
    rw [e0]; dsimp only; omega
  | ⟨1, _⟩ =>
    show win0_2.index _ (1 : Fin 3) * 8 ≤ (i 1).val ∧ (i 1).val < win0_2.index _ (1 : Fin 3) * 8 + 8
    rw [e1]; omega
  | ⟨2, _⟩ =>
    show win0_2.index _ (2 : Fin 3) * 128 ≤ (i 2).val ∧ (i 2).val < win0_2.index _ (2 : Fin 3) * 128 + 128
    rw [e2]; omega

/-- The result array after the run. -/
theorem final (c : Dev nD) : (dats m 0 c).arrAt 2 cfg0.N = outArr (argX m c) (argY m c) :=
  (dats m 0 c).arrAt_eq_of_cover 2 (outArr (argX m c) (argY m c)) (fun t hf => flushed_eq m c t hf) (cover)

end Cert.KernelIdeal.Chain

end
-- ==== Proof.Algebra.lean ====
/-
  The algebra that joins the two programs.

  1. The zero border commutes with subtraction, and on real entries (a - c) - (b - d) = (a - b) - (c - d): the
     one-step differences of a difference image are the differences of the one-step differences (`termK_eq_termR`).
     This is where finiteness is used: on the extended reals the law fails at the infinities.
  2. Sums may be taken in any order, so the per-batch sums add up to the sum over everything
     (`sum_batch_eq_total`).
  3. A quantity repeated in 128 lanes, summed and divided by 128, is the quantity (`div128`): division by the real
     128 is multiplication by 1/128, and multiplication on the extended reals is associative.
-/
import proofs.«128322_j41558103556725_1_alg».proof.Proof.Spec
import Idealize.ShloMosaic.PureOps.Ideal.Laws

noncomputable section

open scoped BigOperators

namespace Cert.StructLoss

open Idealize.ShloMosaic Idealize.ShloMosaic.ValueIdx

/-- The border of zeros commutes with an entrywise difference: 0 = 0 - 0 on the border. -/
theorem padAt_sub (d e : Fin 512 → Fin 512 → EReal) (r s : ℕ) :
    padAt (fun i j => d i j - e i j) r s = padAt d r s - padAt e r s := by
  unfold padAt
  split_ifs
  · rfl
  · simp

/-- A padded image of real entries has real entries: an entry of the image, or 0. -/
theorem padAt_finite {d : Fin 512 → Fin 512 → EReal} (hd : ∀ i j, d i j ≠ ⊤ ∧ d i j ≠ ⊥) (r s : ℕ) :
    padAt d r s ≠ ⊤ ∧ padAt d r s ≠ ⊥ := by
  unfold padAt
  split_ifs
  · exact hd _ _
  · exact ⟨EReal.zero_ne_top, EReal.zero_ne_bot⟩

/-- On real numbers, (a - c) - (b - d) = (a - b) - (c - d). -/
theorem sub_sub_sub_comm_of_finite {a b c d : EReal} (ha : a ≠ ⊤ ∧ a ≠ ⊥) (hb : b ≠ ⊤ ∧ b ≠ ⊥)
    (hc : c ≠ ⊤ ∧ c ≠ ⊥) (hd : d ≠ ⊤ ∧ d ≠ ⊥) : (a - c) - (b - d) = (a - b) - (c - d) := by
  lift a to ℝ using ha
  lift b to ℝ using hb
  lift c to ℝ using hc
  lift d to ℝ using hd
  rw [← EReal.coe_sub, ← EReal.coe_sub, ← EReal.coe_sub, ← EReal.coe_sub, ← EReal.coe_sub, ← EReal.coe_sub]
  exact congrArg _ (by ring)

/-- The four differences of the difference image are the differences of each image's four differences, entry by
    entry, when every entry of both arrays is a real number. -/
theorem termK_eq_termR {X Y : Arr} (hX : IsFinite X) (hY : IsFinite Y) (b : Fin 16) (c : Fin 6) (k : Fin 4)
    (i j : Fin 512) : termK X Y b c k i j = termR X Y b c k i j := by
  unfold termK termR grad
  rw [padAt_sub, padAt_sub]
  have fX : ∀ i j, img X b c i j ≠ ⊤ ∧ img X b c i j ≠ ⊥ := fun i j => hX _
  have fY : ∀ i j, img Y b c i j ≠ ⊤ ∧ img Y b c i j ≠ ⊥ := fun i j => hY _
  rw [sub_sub_sub_comm_of_finite (padAt_finite fX _ _) (padAt_finite fX _ _) (padAt_finite fY _ _) (padAt_finite fY _ _)]

/-- The per-batch sums (channels outside directions) add up to the sum over everything (directions outside
    channels). -/
theorem sum_batch_eq_total {X Y : Arr} (hX : IsFinite X) (hY : IsFinite Y) :
    ∑ b : Fin 16, batchK X Y b = totalR X Y := by
  unfold batchK totalR
  refine Finset.sum_congr rfl fun b _ => ?_
  rw [Finset.sum_comm]
  exact Finset.sum_congr rfl fun k _ => Finset.sum_congr rfl fun c _ => Finset.sum_congr rfl fun i _ =>
    Finset.sum_congr rfl fun j _ => termK_eq_termR hX hY b c k i j

/-- The word 0x43000000 denotes the real number 128. -/
theorem ofBits_128 : Ideal.ofBits .f32 0x43000000#32 = ((128 : ℝ) : EReal) := by
  simp [Ideal.ofBits, Ideal.ieee, -EReal.coe_mul]; norm_num

/-- 128 copies of a quantity, divided by 128, is the quantity — at the infinities too. -/
theorem div128 (S : EReal) : Ideal.div ((128 : ℕ) • S) (Ideal.ofBits .f32 0x43000000#32) = S := by
  rw [ofBits_128, Ideal.div_coe (by norm_num : (128 : ℝ) ≠ 0), EReal.nsmul_eq_mul, mul_comm, ← mul_assoc]
  have h1 : (((1 / 128 : ℝ) : ℝ) : EReal) * ((128 : ℕ) : EReal) = 1 := by
    rw [show ((128 : ℕ) : EReal) = ((128 : ℝ) : EReal) from by norm_cast, ← EReal.coe_mul]
    norm_num
  rw [h1, one_mul]

end Cert.StructLoss

end
-- ==== Proof.LaneSum.lean ====
/-
  A sum over a rank-3 index set is the triple sum over its coordinates; and when an array of shape [2, 8, 128]
  holds, in every one of its 128 lanes, the total of batch entry 8 g + r at position (g, r), the sum of all its
  entries is 128 copies of the sum of the 16 totals. Everything is stated in an additive commutative monoid:
  sums may be taken in any order and no finiteness is used.
-/
import Idealize.ShloMosaic.Lib.ValueIdx
import Mathlib.Logic.Equiv.Fin.Basic
import Mathlib.Algebra.BigOperators.Fin
import Mathlib.Algebra.BigOperators.GroupWithZero.Action

noncomputable section

open scoped BigOperators

namespace Cert.StructLoss.Lanes

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the 16 batch entries, split as entry 8 g + r with g below 2 and r below 8. -/
theorem sum_fin16 {M : Type*} [AddCommMonoid M] (T : Fin 16 → M) :
    ∑ b : Fin 16, T b
      = ∑ g : Fin 2, ∑ r : Fin 8,
          T ⟨8 * g.val + r.val, by have := g.isLt; have := r.isLt; omega⟩ := by
  have h : ∑ b : Fin (2 * 8), T b = ∑ p : Fin 2 × Fin 8, T (finProdFinEquiv p) :=
    (Equiv.sum_comp (finProdFinEquiv (m := 2) (n := 8)) T).symm
  have h' : ∑ b : Fin 16, T b = ∑ p : Fin 2 × Fin 8, T (finProdFinEquiv p) := h
  rw [h', Fintype.sum_prod_type]
  refine Finset.sum_congr rfl fun g _ => Finset.sum_congr rfl fun r _ => ?_
  congr 1
  apply Fin.ext
  show r.val + 8 * g.val = 8 * g.val + r.val
  omega

/-- An array of shape [2, 8, 128] that repeats, in all 128 lanes, the total of batch entry 8 g + r at (g, r) sums to
    128 copies of the sum of the 16 totals. -/
theorem sum_lanes {M : Type*} [AddCommMonoid M] (T : Fin 16 → M) (O : (⟨3, ![2, 8, 128]⟩ : Shape).Idx → M)
    (hO : ∀ (g : Fin 2) (r : Fin 8) (l : Fin 128),
      O (ix3 g r l) = T ⟨8 * g.val + r.val, by have := g.isLt; have := r.isLt; omega⟩) :
    ∑ q, O q = (128 : ℕ) • ∑ b : Fin 16, T b := by
  rw [sum_idx3, sum_fin16, Finset.smul_sum]
  refine Finset.sum_congr rfl fun g _ => ?_
  rw [Finset.smul_sum]
  refine Finset.sum_congr rfl fun r _ => ?_
  rw [Finset.sum_congr rfl (fun l _ => hO g r l), Finset.sum_const, Finset.card_univ, Fintype.card_fin]

end Cert.StructLoss.Lanes
-- ==== Proof.Result.lean ====
/-
  The kernel's result, and why it is the reference's.

  After the region the host sums the 2 × 8 × 128 result array from zero, divides by 128 (`kernelMean`), and then
  does what the reference does with its total (`tail`). Every lane of row r of group g holds batch entry
  8 g + r's total, so the sum is 128 copies of the sum over the sixteen batch entries, the division by 128
  cancels, and on arrays of real entries the sum over batch entries is the reference's total
  (`kernelMean_eq`).
-/
import proofs.«128322_j41558103556725_1_alg».proof.Proof.Chain
import proofs.«128322_j41558103556725_1_alg».proof.Proof.Algebra
import proofs.«128322_j41558103556725_1_alg».proof.Proof.LaneSum
import Idealize.ShloMosaic.Lib.StableHlo.Run
import Idealize.ShloMosaic.Lib.Pipeline.FrameSuffix
import Idealize.ShloMosaic.PureOps.Ideal.Laws

set_option maxRecDepth 65536

noncomputable section

open scoped BigOperators
open Idealize.ShloMosaic Idealize.ShloMosaic.TcCoe Idealize.SL.Sem
open Idealize.ShloMosaic.Pipeline (Dat)

namespace Cert.KernelIdeal.Result

open Idealize.ShloMosaic.ValueIdx
open Cert.KernelIdeal Cert.KernelIdeal.Gen Cert.KernelIdeal.Chain
open Cert.StructLoss

/-- The sum of the result array from zero, divided by 128: what the host hands to the shared tail. -/
def kernelMean (X Y : Arr) : FVec Ideal S0 .f32 :=
  Host.divf (F := Ideal)
    (Host.reduceAdd (F := Ideal) (outArr X Y) (constant (F := Ideal) S_ .f32 0x00000000#32)
      Facts₀.reducesTo_S2x8x128_S_d0_1_2 Facts₀.h_S_)
    (constant (F := Ideal) S_ .f32 0x43000000#32)

/-- On arrays of real entries the kernel's mean is zero plus the reference's total. -/
theorem kernelMean_eq {X Y : Arr} (hX : IsFinite X) (hY : IsFinite Y) :
    kernelMean X Y = fun _ => Ideal.ofBits .f32 0x00000000#32 + totalR X Y := by
  funext i
  have hs : Host.reduceAdd (F := Ideal) (outArr X Y) (constant (F := Ideal) S_ .f32 0x00000000#32)
      Facts₀.reducesTo_S2x8x128_S_d0_1_2 Facts₀.h_S_ i
      = Ideal.ofBits .f32 0x00000000#32 + ∑ q : S2x8x128.Idx, outArr X Y q := by
    simp only [Host.reduceAdd, Ideal.hostReduceAdd_def]
    exact Ideal.hostReduceAdd_total Facts₀.reducesTo_S2x8x128_S_d0_1_2 (fun b => b.elim0) (outArr X Y) _ i
  show Ideal.div (Host.reduceAdd (F := Ideal) (outArr X Y) (constant (F := Ideal) S_ .f32 0x00000000#32)
      Facts₀.reducesTo_S2x8x128_S_d0_1_2 Facts₀.h_S_ i) (Ideal.ofBits .f32 0x43000000#32) = _
  rw [hs, Ideal.ofBits_zero_f32, zero_add, zero_add,
    Cert.StructLoss.Lanes.sum_lanes (batchK X Y) (outArr X Y) (fun g r l => rfl), div128, sum_batch_eq_total hX hY]

variable (m : (ℓ : Loc nD τ sig) → Buf (Elt Ideal) ℓ) (ρ : Dev nD → PrngReg)

/-- The host operations after the region leave, in the result buffer, the shared tail of the kernel's mean. -/
theorem tail_value (c : Dev nD) :
    Pipeline.afterTail₀ cfgs (dats m) 0 (V0 m) [hostOps1] c main_v5 = tail (kernelMean (argX m c) (argY m c)) := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v0)
      = outArr (argX m c) (argY m c) from
    (Pipeline.withArrays_arr spec0 launch0.win.arr_inj c _ _ 2).trans (final m c)]
  rfl

/-- The run, read: the result at the shared tail of the kernel's mean, the arguments unchanged. -/
theorem run : θ_run defs (onTc (τ := τ) (main (F := Ideal))) ⟨m, fun _ => 0, ρ⟩ fun r => ∀ c : Dev nD,
      r.2.mem ((c.tc : Thread nD τ).loc main_v5) = tail (kernelMean (argX m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v5 (by decide)).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefSide.lean ====
/-
  The reference program read back as the mathematics of the shared specification.

  The program pads each argument with one ring of zeros on the two image axes, takes four pairs of 512 × 512 windows of
  the padded array and subtracts each pair — the four one-step differences `grad k` of every channel image —, joins
  the four results along the channel axis (joined channel 6 k + c is direction k of channel c), subtracts the joined
  array of the second argument from that of the first, takes absolute values and sums every entry. Read at an index,
  each stage is a term of the specification: the padded array is `padAt`, a pair of windows is `grad k`, an entry of
  the array of absolute values is `termR`, and the sum over the joined array, re-indexed by batch, direction, channel
  and pixel, is `totalR`. What follows the sum is `tail`, word for word.
-/
import proofs.«128322_j41558103556725_1_alg».proof.Proof.Spec
import proofs.«128322_j41558103556725_1_alg».proof.Proof.Gen.ReferenceIdeal.Read
import Idealize.ShloMosaic.Lib.KernelVsHost
import Idealize.ShloMosaic.Lib.Pipeline.Value
import Idealize.ShloMosaic.PureOps.Ideal.Laws
import Mathlib.Logic.Equiv.Fin.Basic
import Mathlib.Algebra.BigOperators.Fin

noncomputable section

open scoped BigOperators

namespace Cert.StructLoss.Ref

open Cert.ReferenceIdeal Cert.ReferenceIdeal.Gen Cert.ReferenceIdeal.Read Idealize.ShloMosaic Idealize.ShloMosaic.ValueIdx
  Cert.StructLoss

/-! ## Sums over index sets as sums over coordinates -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A sum over the 24 joined channels is the sum over the 4 directions of the sum over the 6 channels: joined channel
    6 k + c is direction k of channel c. -/
theorem sum_joined {M : Type*} [AddCommMonoid M] (g : Fin 24 → M) :
    ∑ a : Fin 24, g a = ∑ k : Fin 4, ∑ c : Fin 6, g ⟨6 * k.val + c.val, by omega⟩ := by
  rw [← Equiv.sum_comp (finProdFinEquiv (m := 4) (n := 6)) g, Fintype.sum_prod_type]
  refine Finset.sum_congr rfl fun k _ => Finset.sum_congr rfl fun c _ => ?_
  refine congrArg g (Fin.ext ?_)
  show c.val + 6 * k.val = 6 * k.val + c.val
  omega

/-! ## The padded array -/

/-- `P` is the argument `X` with one ring of zeros around every channel image. -/
def IsPadOf (P : S16x6x514x514.Idx → EReal) (X : Arr) : Prop :=
  ∀ (b : Fin 16) (c : Fin 6) (r s : Fin 514), P (ix4 b c r s) = padAt (img X b c) r.val s.val

/-- A pad by one on each side of the two image axes, with a padding value that is zero, is that padded array: inside the
    ring it is the argument one step up and left, on the ring it is the padding value. -/
theorem isPadOf_pad (X : Arr) (v : S_.Idx → EReal) (hv : v (Shape.Idx.first h_S_) = 0) :
    IsPadOf (pad S16x6x514x514 ![0, 0, 1, 1] ![0, 0, 1, 1] ![0, 0, 0, 0] X v
      pads_S16x6x512x512_S16x6x514x514_000_000_110_110 h_S_) X := by
  intro b c r s
  have hr : r.val < 514 := r.isLt
  have hs : s.val < 514 := s.isLt
  unfold padAt
  by_cases h : (1 ≤ r.val ∧ r.val ≤ 512) ∧ (1 ≤ s.val ∧ s.val ≤ 512)
  · rw [dif_pos h]
    exact pad_apply_of_inside _ _ _ X v pads_S16x6x512x512_S16x6x514x514_000_000_110_110 h_S_ _
      (ix4 b c ⟨r.val - 1, by omega⟩ ⟨s.val - 1, by omega⟩) (fun a => match a with
        | ⟨0, _⟩ => by show b.val = 0 + b.val * (0 + 1); omega
        | ⟨1, _⟩ => by show c.val = 0 + c.val * (0 + 1); omega
        | ⟨2, _⟩ => by show r.val = 1 + (r.val - 1) * (0 + 1); omega
        | ⟨3, _⟩ => by show s.val = 1 + (s.val - 1) * (0 + 1); omega)
  · rw [dif_neg h, ← hv]
    by_cases h2 : 1 ≤ r.val ∧ r.val ≤ 512
    · refine pad_apply_of_not_inside _ _ _ X v pads_S16x6x512x512_S16x6x514x514_000_000_110_110 h_S_ _ (3 : Fin 4) ?_
      intro hin
      have e1 : 1 ≤ s.val := hin.1
      have e2 : (s.val - 1) / (0 + 1) < 512 := hin.2.2
      rw [Nat.div_one] at e2
      exact h ⟨h2, e1, by omega⟩
    · refine pad_apply_of_not_inside _ _ _ X v pads_S16x6x512x512_S16x6x514x514_000_000_110_110 h_S_ _ (2 : Fin 4) ?_
      intro hin
      have e1 : 1 ≤ r.val := hin.1
      have e2 : (r.val - 1) / (0 + 1) < 512 := hin.2.2
      rw [Nat.div_one] at e2
      exact h2 ⟨e1, by omega⟩

/-- The integer constant zero converted to a float is zero. -/
theorem zero_sitofp : FloatOps.sitofp (F := Ideal) .f32 (0#32 : BitVec 32) = 0 := by
  show (((0#32 : BitVec 32).toInt : ℝ) : EReal) = 0
  have e : (0#32 : BitVec 32).toInt = 0 := by decide
  rw [e]; simp

theorem isPadOf_v0 (X : Arr) : IsPadOf (val_main_v0 (F := Ideal) X) X :=
  isPadOf_pad X _ zero_sitofp

theorem isPadOf_v14 (Y : Arr) : IsPadOf (val_main_v14 (F := Ideal) Y) Y :=
  isPadOf_pad Y _ zero_sitofp

/-- The padded array read at an index given by its four coordinates. -/
theorem read_of_coords {P : S16x6x514x514.Idx → EReal} {X : Arr} (hP : IsPadOf P X) (q : S16x6x514x514.Idx)
    (b : Fin 16) (c : Fin 6) (r s : ℕ)
    (h0 : (q 0).val = b.val) (h1 : (q 1).val = c.val) (h2 : (q 2).val = r) (h3 : (q 3).val = s) :
    P q = padAt (img X b c) r s := by
  subst h2 h3
  have e : q = ix4 b c (q 2) (q 3) := by
    funext a
    match a with
    | ⟨0, _⟩ => exact Fin.ext h0
    | ⟨1, _⟩ => exact Fin.ext h1
    | ⟨2, _⟩ => rfl
    | ⟨3, _⟩ => rfl
  exact (congrArg P e).trans (hP b c (q 2) (q 3))

/-- Two windows of the padded array, at the two offsets of direction `k`, subtracted: the one-step difference. -/
theorem dir_read {P : S16x6x514x514.Idx → EReal} {X : Arr} (hP : IsPadOf P X) (k : Fin 4) (b : Fin 16) (c : Fin 6)
    (i j : Fin 512) (q1 q2 : S16x6x514x514.Idx)
    (a0 : (q1 0).val = b.val) (a1 : (q1 1).val = c.val)
    (a2 : (q1 2).val = i.val + (offA k).1) (a3 : (q1 3).val = j.val + (offA k).2)
    (b0 : (q2 0).val = b.val) (b1 : (q2 1).val = c.val)
    (b2 : (q2 2).val = i.val + (offB k).1) (b3 : (q2 3).val = j.val + (offB k).2) :
    P q1 - P q2 = grad k (img X b c) i j := by
  rw [read_of_coords hP q1 b c _ _ a0 a1 a2 a3, read_of_coords hP q2 b c _ _ b0 b1 b2 b3]
  rfl

/-! ## The four one-step differences of each argument -/

theorem v3_read (X : Arr) (b : Fin 16) (c : Fin 6) (i j : Fin 512) :
    val_main_v3 (F := Ideal) X (ix4 b c i j) = grad 0 (img X b c) i j := by
  rw [val_main_v3_apply, val_main_v1_apply, val_main_v2_apply]
  exact dir_read (isPadOf_v0 X) 0 b c i j _ _ rfl rfl rfl (by show 1 + j.val = j.val + 1; omega)
    rfl rfl (by show 2 + i.val = i.val + 2; omega) (by show 1 + j.val = j.val + 1; omega)

theorem v6_read (X : Arr) (b : Fin 16) (c : Fin 6) (i j : Fin 512) :
    val_main_v6 (F := Ideal) X (ix4 b c i j) = grad 1 (img X b c) i j := by
  rw [val_main_v6_apply, val_main_v4_apply, val_main_v5_apply]
  exact dir_read (isPadOf_v0 X) 1 b c i j _ _ rfl rfl (by show 1 + i.val = i.val + 1; omega) rfl
    rfl rfl (by show 1 + i.val = i.val + 1; omega) (by show 2 + j.val = j.val + 2; omega)

theorem v9_read (X : Arr) (b : Fin 16) (c : Fin 6) (i j : Fin 512) :
    val_main_v9 (F := Ideal) X (ix4 b c i j) = grad 2 (img X b c) i j := by
  rw [val_main_v9_apply, val_main_v7_apply, val_main_v8_apply]
  exact dir_read (isPadOf_v0 X) 2 b c i j _ _ rfl rfl rfl rfl
    rfl rfl (by show 2 + i.val = i.val + 2; omega) (by show 2 + j.val = j.val + 2; omega)

theorem v12_read (X : Arr) (b : Fin 16) (c : Fin 6) (i j : Fin 512) :
    val_main_v12 (F := Ideal) X (ix4 b c i j) = grad 3 (img X b c) i j := by
  rw [val_main_v12_apply, val_main_v10_apply, val_main_v11_apply]
  exact dir_read (isPadOf_v0 X) 3 b c i j _ _ rfl rfl rfl (by show 2 + j.val = j.val + 2; omega)
    rfl rfl (by show 2 + i.val = i.val + 2; omega) rfl

theorem v17_read (Y : Arr) (b : Fin 16) (c : Fin 6) (i j : Fin 512) :
    val_main_v17 (F := Ideal) Y (ix4 b c i j) = grad 0 (img Y b c) i j := by
  rw [val_main_v17_apply, val_main_v15_apply, val_main_v16_apply]
  exact dir_read (isPadOf_v14 Y) 0 b c i j _ _ rfl rfl rfl (by show 1 + j.val = j.val + 1; omega)
    rfl rfl (by show 2 + i.val = i.val + 2; omega) (by show 1 + j.val = j.val + 1; omega)

theorem v20_read (Y : Arr) (b : Fin 16) (c : Fin 6) (i j : Fin 512) :
    val_main_v20 (F := Ideal) Y (ix4 b c i j) = grad 1 (img Y b c) i j := by
  rw [val_main_v20_apply, val_main_v18_apply, val_main_v19_apply]
  exact dir_read (isPadOf_v14 Y) 1 b c i j _ _ rfl rfl (by show 1 + i.val = i.val + 1; omega) rfl
    rfl rfl (by show 1 + i.val = i.val + 1; omega) (by show 2 + j.val = j.val + 2; omega)

theorem v23_read (Y : Arr) (b : Fin 16) (c : Fin 6) (i j : Fin 512) :
    val_main_v23 (F := Ideal) Y (ix4 b c i j) = grad 2 (img Y b c) i j := by
  rw [val_main_v23_apply, val_main_v21_apply, val_main_v22_apply]
  exact dir_read (isPadOf_v14 Y) 2 b c i j _ _ rfl rfl rfl rfl
    rfl rfl (by show 2 + i.val = i.val + 2; omega) (by show 2 + j.val = j.val + 2; omega)

theorem v26_read (Y : Arr) (b : Fin 16) (c : Fin 6) (i j : Fin 512) :
    val_main_v26 (F := Ideal) Y (ix4 b c i j) = grad 3 (img Y b c) i j := by
  rw [val_main_v26_apply, val_main_v24_apply, val_main_v25_apply]
  exact dir_read (isPadOf_v14 Y) 3 b c i j _ _ rfl rfl rfl (by show 2 + j.val = j.val + 2; omega)
    rfl rfl (by show 2 + i.val = i.val + 2; omega) rfl

/-! ## The joined arrays -/

/-- Four arrays joined along the channel axis, read at joined channel `pre + c` where `pre` channels come before piece
    `k`: piece `k` at channel `c`. -/
theorem joined_read (x0 x1 x2 x3 : S16x6x512x512.Idx → EReal) (k : Nat) (hk : k < 4)
    (x : S16x6x512x512.Idx → EReal)
    (hx : [(⟨S16x6x512x512, x0⟩ : (s : Shape) × (s.Idx → EReal)), ⟨S16x6x512x512, x1⟩, ⟨S16x6x512x512, x2⟩,
      ⟨S16x6x512x512, x3⟩][k]'hk = ⟨S16x6x512x512, x⟩)
    (b : Fin 16) (c : Fin 6) (a : Fin 24) (ha : 6 * k + c.val = a.val) (i j : Fin 512) :
    concatenate S16x24x512x512 1 [⟨S16x6x512x512, x0⟩, ⟨S16x6x512x512, x1⟩, ⟨S16x6x512x512, x2⟩, ⟨S16x6x512x512, x3⟩]
      concatenates_S16x6x512x512_S16x6x512x512_S16x6x512x512_S16x6x512x512_S16x24x512x512_d1 (ix4 b a i j)
      = x (ix4 b c i j) := by
  refine concatenate_apply_piece (t := S16x24x512x512) (1 : Fin 4)
    [⟨S16x6x512x512, x0⟩, ⟨S16x6x512x512, x1⟩, ⟨S16x6x512x512, x2⟩, ⟨S16x6x512x512, x3⟩]
    concatenates_S16x6x512x512_S16x6x512x512_S16x6x512x512_S16x6x512x512_S16x24x512x512_d1
    (ix4 b a i j) k hk S16x6x512x512 x hx rfl (6 * k) ?_ (ix4 b c i j) (fun b' hb' => ?_) ha
  · match k, hk with
    | 0, _ => rfl
    | 1, _ => rfl
    | 2, _ => rfl
    | 3, _ => rfl
  · match b', hb' with
    | ⟨0, _⟩, _ => rfl
    | ⟨1, _⟩, h => exact absurd rfl h
    | ⟨2, _⟩, _ => rfl
    | ⟨3, _⟩, _ => rfl

/-- The first argument's joined array at joined channel 6 k + c: direction `k` of channel `c`. -/
theorem v13_read (X : Arr) (b : Fin 16) (k : Fin 4) (c : Fin 6) (i j : Fin 512) :
    val_main_v13 (F := Ideal) X (ix4 b (⟨6 * k.val + c.val, by omega⟩ : Fin 24) i j) = grad k (img X b c) i j := by
  unfold val_main_v13
  match k with
  | ⟨0, _⟩ => exact (joined_read _ _ _ _ 0 (by omega) _ rfl b c _ rfl i j).trans (v3_read X b c i j)
  | ⟨1, _⟩ => exact (joined_read _ _ _ _ 1 (by omega) _ rfl b c _ rfl i j).trans (v6_read X b c i j)
  | ⟨2, _⟩ => exact (joined_read _ _ _ _ 2 (by omega) _ rfl b c _ rfl i j).trans (v9_read X b c i j)
  | ⟨3, _⟩ => exact (joined_read _ _ _ _ 3 (by omega) _ rfl b c _ rfl i j).trans (v12_read X b c i j)

/-- The second argument's joined array at joined channel 6 k + c. -/
theorem v27_read (Y : Arr) (b : Fin 16) (k : Fin 4) (c : Fin 6) (i j : Fin 512) :
    val_main_v27 (F := Ideal) Y (ix4 b (⟨6 * k.val + c.val, by omega⟩ : Fin 24) i j) = grad k (img Y b c) i j := by
  unfold val_main_v27
  match k with
  | ⟨0, _⟩ => exact (joined_read _ _ _ _ 0 (by omega) _ rfl b c _ rfl i j).trans (v17_read Y b c i j)
  | ⟨1, _⟩ => exact (joined_read _ _ _ _ 1 (by omega) _ rfl b c _ rfl i j).trans (v20_read Y b c i j)
  | ⟨2, _⟩ => exact (joined_read _ _ _ _ 2 (by omega) _ rfl b c _ rfl i j).trans (v23_read Y b c i j)
  | ⟨3, _⟩ => exact (joined_read _ _ _ _ 3 (by omega) _ rfl b c _ rfl i j).trans (v26_read Y b c i j)

/-! ## The summand, the total, the value -/

/-- An entry of the array of absolute values is the specification's summand. -/
theorem v29_read (X Y : Arr) (b : Fin 16) (k : Fin 4) (c : Fin 6) (i j : Fin 512) :
    val_main_v29 (F := Ideal) X Y (ix4 b (⟨6 * k.val + c.val, by omega⟩ : Fin 24) i j) = termR X Y b c k i j := by
  rw [val_main_v29_apply, val_main_v28_apply, v13_read, v27_read]
  rfl

/-- The sum of every entry, from the constant zero, is that constant plus the specification's total. -/
theorem v30_read (X Y : Arr) :
    val_main_v30 (F := Ideal) X Y = fun _ => Ideal.ofBits .f32 0x00000000#32 + totalR X Y := by
  funext i0
  rw [val_main_v30_apply, val_main_cst_apply]
  congr 1
  rw [sum_idx4]
  unfold totalR
  refine Finset.sum_congr rfl fun b _ => ?_
  rw [sum_joined]
  refine Finset.sum_congr rfl fun k _ => Finset.sum_congr rfl fun c _ => Finset.sum_congr rfl fun i _ =>
    Finset.sum_congr rfl fun j _ => ?_
  exact v29_read X Y b k c i j

/-- **The reference program's value**: the specification's `tail` of the constant zero plus its total. -/
theorem ref_value (X Y : Arr) :
    val_main_v33 (F := Ideal) X Y = tail (fun _ => Ideal.ofBits .f32 0x00000000#32 + totalR X Y) := by
  rw [← v30_read X Y]
  rfl

end Cert.StructLoss.Ref

end
-- ==== Proof.FiniteInputs.lean ====
/-
  The precondition "every float input is finite", read back as a statement about the two argument arrays.

  The predicate takes |X| elementwise, compares it with the constant +∞ (the pattern 0x7F800000) by the
  ordered "less than", folds the resulting one-bit array by "and" from the constant 1 over all four axes into a
  scalar, does the same with Y, and takes the "and" of the two scalars. If the result is 1, both folds are 1; a
  fold by "and" from 1 that comes out 1 met only 1s, so at EVERY index i the comparison max (X i) (-(X i)) < ⊤
  holds, and an extended real whose absolute value is below ⊤ is neither ⊤ nor ⊥.
-/
import proofs.«128322_j41558103556725_1_alg».proof.Proof.Spec
import proofs.«128322_j41558103556725_1_alg».proof.Pre_finite_inputs
import Idealize.ShloMosaic.Lib.ReduceAll
import Idealize.ShloMosaic.Lib.ValueIdx
import Idealize.ShloMosaic.PureOps.Ideal

noncomputable section

namespace Cert.StructLoss.Pre

open Idealize.ShloMosaic Idealize.ShloMosaic.ValueIdx

/-- The single-precision pattern 0x7F800000 (sign 0, exponent all ones, fraction 0) denotes +∞. -/
theorem inf_bits : Ideal.ofBits .f32 0x7F800000#32 = (⊤ : EReal) := by
  simp [Ideal.ofBits, Ideal.ieee]

/-- An extended real whose absolute value max x (-x) is below ⊤ is neither infinity:
    at x = ⊤ the maximum is ⊤, and at x = ⊥ it is -⊥ = ⊤. -/
theorem ne_top_bot_of_abs_lt (x : EReal) (h : max x (-x) < ⊤) : x ≠ ⊤ ∧ x ≠ ⊥ := by
  constructor
  · rintro rfl
    simp at h
  · rintro rfl
    simp at h

/-- A Boolean written as a one-bit word is the word 1 exactly when it is true. -/
theorem ofBool_eq_one (b : Bool) : BitVec.ofBool b = 1#1 ↔ b = true := by cases b <;> decide

/-- One element of the compared array: the ordered comparison |x| < +∞ reading 1 says x is a real number. -/
theorem finite_of_cmp (x : EReal)
    (h : Ideal.cmp .olt (max x (-x)) (Ideal.ofBits .f32 0x7F800000#32) = 1#1) : x ≠ ⊤ ∧ x ≠ ⊥ := by
  rw [inf_bits] at h
  unfold Ideal.cmp at h
  rw [ofBool_eq_one] at h
  exact ne_top_bot_of_abs_lt x (of_decide_eq_true h)

/-- The scalar shape has exactly one index. -/
instance : Subsingleton Cert.Pre_finite_inputs.S_.Idx := ⟨fun a b => funext fun d => d.elim0⟩

/-- THE PRECONDITION DECODED: if the predicate returns 1, every entry of both arrays is a real number. -/
theorem finite_of_pre [Cert.Pre_finite_inputs.Facts] (X Y : Cert.StructLoss.Arr)
    (h : Cert.Pre_finite_inputs.fn (F := Ideal) X Y = (fun _ => 1#1)) :
    Cert.StructLoss.IsFinite X ∧ Cert.StructLoss.IsFinite Y := by
  have e := congrFun h ix0
  unfold Cert.Pre_finite_inputs.fn at e
  -- the final "and" of the two folded scalars is 1: both are
  obtain ⟨e1, e2⟩ := IntOp.andi_eq_one.1 e
  refine ⟨fun i => ?_, fun i => ?_⟩
  · -- the fold over X's comparisons is 1, so the comparison at i is
    exact finite_of_cmp (X i) (Host.reduce_andi_all _ _ _ _ ix0 e1 i)
  · exact finite_of_cmp (Y i) (Host.reduce_andi_all _ _ _ _ ix0 e2 i)

end Cert.StructLoss.Pre

end
-- ==== Proof.lean ====
/-
  The proof of `Cert.Claim`: the kernel and its reference compute the same loss.

  Both programs take two arrays of 16 × 6 images of 512 × 512 pixels and return
      sqrt ( (sum of |one-step differences|) / (number of terms) + ε ),
  the differences taken in four directions (vertical, horizontal, two diagonals) of images padded by a ring of
  zeros. The reference takes the differences of each array and subtracts; the kernel subtracts the arrays first and
  takes the differences once. The differences are linear, so on arrays whose every entry is a real number — which
  the precondition says — the summands agree (Proof/Algebra.lean). The kernel also sums in another order: one batch
  entry per grid point, six channels and four directions inside, each total written to one row of a small
  8 × 128 block in all 128 lanes; the host sums the blocks and divides by 128 (Proof/Body.lean … Proof/Result.lean).
  The reference's side is Proof/RefSide.lean; the precondition read as finiteness is Proof/FiniteInputs.lean; the
  common statement of what is computed is Proof/Spec.lean.

  The three frame claims are the generated frame runs (the reference's is its generated run with the result
  dropped); the idealization rewrote nothing, so `preserves` is `True`.
-/
import proofs.«128322_j41558103556725_1_alg».proof.Defs
import proofs.«128322_j41558103556725_1_alg».proof.Proof.Gen.Kernel
import proofs.«128322_j41558103556725_1_alg».proof.Proof.Gen.Kernel.Skeleton
import proofs.«128322_j41558103556725_1_alg».proof.Proof.Gen.Kernel.Launch
import proofs.«128322_j41558103556725_1_alg».proof.Proof.Gen.Kernel.Points
import proofs.«128322_j41558103556725_1_alg».proof.Proof.Gen.Kernel.Frame
import proofs.«128322_j41558103556725_1_alg».proof.Proof.Gen.KernelIdeal
import proofs.«128322_j41558103556725_1_alg».proof.Proof.Gen.KernelIdeal.Skeleton
import proofs.«128322_j41558103556725_1_alg».proof.Proof.Gen.KernelIdeal.Launch
import proofs.«128322_j41558103556725_1_alg».proof.Proof.Gen.KernelIdeal.Points
import proofs.«128322_j41558103556725_1_alg».proof.Proof.Gen.KernelIdeal.Frame
import proofs.«128322_j41558103556725_1_alg».proof.Proof.Gen.ReferenceIdeal
import proofs.«128322_j41558103556725_1_alg».proof.Proof.Gen.Pre_finite_inputs
import proofs.«128322_j41558103556725_1_alg».proof.Proof.Gen.ReferenceIdeal.Run
import proofs.«128322_j41558103556725_1_alg».proof.Proof.Gen.ReferenceIdeal.Read
import proofs.«128322_j41558103556725_1_alg».proof.Proof.Result
import proofs.«128322_j41558103556725_1_alg».proof.Proof.RefSide
import proofs.«128322_j41558103556725_1_alg».proof.Proof.FiniteInputs
import Idealize.ShloMosaic.Adequacy
import Idealize.ShloMosaic.Init

noncomputable section

namespace Cert.Proof

open Idealize.ShloMosaic Idealize.SL.Sem

/-- The word-level kernel runs and keeps its arguments: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs, run from memories that agree on the two arguments, end with the shared tail
    of the kernel's mean: the kernel by its run read back, the reference because its total is that mean when every
    entry is a real number. -/
theorem algebraic : Cert.algebraic_KernelIdeal_ReferenceIdeal := by
  intro m ρ m' ρ' hpre hagree
  refine ⟨fun c => Cert.StructLoss.tail (Cert.KernelIdeal.Result.kernelMean (Cert.KernelIdeal.Chain.argX m c) (Cert.KernelIdeal.Chain.argY m c)),
    Cert.KernelIdeal.Result.run m ρ, ?_⟩
  refine (θ_run Cert.ReferenceIdeal.defs _ _).mono (fun _ h c => ⟨?_, (h c).2⟩)
    (Cert.ReferenceIdeal.Value.run (F := Ideal) m' ρ')
  obtain ⟨hX, hY⟩ := Cert.StructLoss.Pre.finite_of_pre _ _ (hpre c)
  rw [(h c).1, Cert.ReferenceIdeal.Read.val_main_v33_eq, (hagree c).1, (hagree c).2, Cert.StructLoss.Ref.ref_value]
  exact (congrArg Cert.StructLoss.tail (Cert.KernelIdeal.Result.kernelMean_eq hX hY)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
